-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8000 : Shape := ⟨2, ![4096, 8000]⟩
abbrev S_ : Shape := ⟨0, ![]⟩

class Facts : Prop where
  bcast_S_S4096x8000 : S_.BroadcastsInDim S4096x8000 (![] : Fin 0 → Fin S4096x8000.rank)
  reducesTo_S4096x8000_S_d0_1 : S4096x8000.ReducesTo [0, 1] S_
  h_S_ : 0 < S_.numel

variable [Facts]

def fn_part1 {F : FTy → Type} [FloatOps F] (main_arg4 : FVec F S4096x8000 .f32) (main_v13 : IVec S_ 1) (main_v16 : IVec S4096x8000 1) : IVec S_ 1 :=
  let main_c_5 : IVec S_ 1 := constantI S_ 1 1#1
  let main_v17 : IVec S_ 1 := (fun x v => Host.reduce IntOp.andi x v reducesTo_S4096x8000_S_d0_1 h_S_) main_v16 main_c_5
  let main_v18 : IVec S_ 1 := andi main_v13 main_v17
  let main_v19 : FVec F S4096x8000 .f32 := Host.absf main_arg4
  let main_cst_6 : FVec F S_ .f32 := constant S_ .f32 0x7F800000#32
  let main_v20 : FVec F S4096x8000 .f32 := broadcastInDim S4096x8000 ![] bcast_S_S4096x8000 main_cst_6
  let main_v21 : IVec S4096x8000 1 := cmpf .olt main_v19 main_v20
  let main_c_7 : IVec S_ 1 := constantI S_ 1 1#1
  let main_v22 : IVec S_ 1 := (fun x v => Host.reduce IntOp.andi x v reducesTo_S4096x8000_S_d0_1 h_S_) main_v21 main_c_7
  let main_v23 : IVec S_ 1 := andi main_v18 main_v22
  main_v23

def fn {F : FTy → Type} [FloatOps F] (main_arg0 : FVec F S4096x8000 .f32) (main_arg1 : FVec F S4096x8000 .f32) (main_arg2 : FVec F S4096x8000 .f32) (main_arg3 : FVec F S4096x8000 .f32) (main_arg4 : FVec F S4096x8000 .f32) : IVec S_ 1 :=
  let main_v0 : FVec F S4096x8000 .f32 := Host.absf main_arg0
  let main_cst : FVec F S_ .f32 := constant S_ .f32 0x7F800000#32
  let main_v1 : FVec F S4096x8000 .f32 := broadcastInDim S4096x8000 ![] bcast_S_S4096x8000 main_cst
  let main_v2 : IVec S4096x8000 1 := cmpf .olt main_v0 main_v1
  let main_c : IVec S_ 1 := constantI S_ 1 1#1
  let main_v3 : IVec S_ 1 := (fun x v => Host.reduce IntOp.andi x v reducesTo_S4096x8000_S_d0_1 h_S_) main_v2 main_c
  let main_v4 : FVec F S4096x8000 .f32 := Host.absf main_arg1
  let main_cst_0 : FVec F S_ .f32 := constant S_ .f32 0x7F800000#32
  let main_v5 : FVec F S4096x8000 .f32 := broadcastInDim S4096x8000 ![] bcast_S_S4096x8000 main_cst_0
  let main_v6 : IVec S4096x8000 1 := cmpf .olt main_v4 main_v5
  let main_c_1 : IVec S_ 1 := constantI S_ 1 1#1
  let main_v7 : IVec S_ 1 := (fun x v => Host.reduce IntOp.andi x v reducesTo_S4096x8000_S_d0_1 h_S_) main_v6 main_c_1
  let main_v8 : IVec S_ 1 := andi main_v3 main_v7
  let main_v9 : FVec F S4096x8000 .f32 := Host.absf main_arg2
  let main_cst_2 : FVec F S_ .f32 := constant S_ .f32 0x7F800000#32
  let main_v10 : FVec F S4096x8000 .f32 := broadcastInDim S4096x8000 ![] bcast_S_S4096x8000 main_cst_2
  let main_v11 : IVec S4096x8000 1 := cmpf .olt main_v9 main_v10
  let main_c_3 : IVec S_ 1 := constantI S_ 1 1#1
  let main_v12 : IVec S_ 1 := (fun x v => Host.reduce IntOp.andi x v reducesTo_S4096x8000_S_d0_1 h_S_) main_v11 main_c_3
  let main_v13 : IVec S_ 1 := andi main_v8 main_v12
  let main_v14 : FVec F S4096x8000 .f32 := Host.absf main_arg3
  let main_cst_4 : FVec F S_ .f32 := constant S_ .f32 0x7F800000#32
  let main_v15 : FVec F S4096x8000 .f32 := broadcastInDim S4096x8000 ![] bcast_S_S4096x8000 main_cst_4
  let main_v16 : IVec S4096x8000 1 := cmpf .olt main_v14 main_v15
  fn_part1 (F := F) main_arg4 main_v13 main_v16
-- ==== Kernel.lean ====
abbrev S4096x8000 : Shape := ⟨2, ![4096, 8000]⟩
abbrev S_ : Shape := ⟨0, ![]⟩
abbrev S4096x8064 : Shape := ⟨2, ![4096, 8064]⟩
abbrev S1x1 : Shape := ⟨2, ![1, 1]⟩
abbrev S4096x128 : Shape := ⟨2, ![4096, 128]⟩
abbrev S128 : Shape := ⟨1, ![128]⟩
abbrev S1x128 : Shape := ⟨2, ![1, 128]⟩
abbrev S1x4096x128 : Shape := ⟨3, ![1, 4096, 128]⟩
abbrev S1 : Shape := ⟨1, ![1]⟩
abbrev S1x1x1 : Shape := ⟨3, ![1, 1, 1]⟩

abbrev nBuf : Space → Nat
  | .hbm => 27
  | .vmem => 20
  | .smem => 0
  | _ => 0

abbrev bufTy : (tb : Table) → Fin (tcTables nBuf tb) → BufTy
  | .hbm, ⟨0, _⟩ => ⟨S4096x8000, .f32⟩
  | .hbm, ⟨1, _⟩ => ⟨S4096x8000, .f32⟩
  | .hbm, ⟨2, _⟩ => ⟨S4096x8000, .f32⟩
  | .hbm, ⟨3, _⟩ => ⟨S4096x8000, .f32⟩
  | .hbm, ⟨4, _⟩ => ⟨S4096x8000, .f32⟩
  | .hbm, ⟨5, _⟩ => ⟨S_, .f32⟩
  | .hbm, ⟨6, _⟩ => ⟨S_, .f32⟩
  | .hbm, ⟨7, _⟩ => ⟨S4096x8064, .f32⟩
  | .hbm, ⟨8, _⟩ => ⟨S_, .f32⟩
  | .hbm, ⟨9, _⟩ => ⟨S_, .f32⟩
  | .hbm, ⟨10, _⟩ => ⟨S4096x8064, .f32⟩
  | .hbm, ⟨11, _⟩ => ⟨S_, .f32⟩
  | .hbm, ⟨12, _⟩ => ⟨S_, .f32⟩
  | .hbm, ⟨13, _⟩ => ⟨S4096x8064, .f32⟩
  | .hbm, ⟨14, _⟩ => ⟨S_, .f32⟩
  | .hbm, ⟨15, _⟩ => ⟨S_, .f32⟩
  | .hbm, ⟨16, _⟩ => ⟨S4096x8064, .f32⟩
  | .hbm, ⟨17, _⟩ => ⟨S_, .f32⟩
  | .hbm, ⟨18, _⟩ => ⟨S_, .f32⟩
  | .hbm, ⟨19, _⟩ => ⟨S4096x8064, .f32⟩
  | .hbm, ⟨20, _⟩ => ⟨S1x1, .f32⟩
  | .hbm, ⟨21, _⟩ => ⟨S1x1, .f32⟩
  | .hbm, ⟨22, _⟩ => ⟨S1x1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x1, .f32⟩
  | .local _ .vmem, ⟨7, _⟩ => ⟨S1x1, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S1x1, .f32⟩
  | .local _ .vmem, ⟨19, _⟩ => ⟨S1x1, .f32⟩
  | _, _ => ⟨S4096x8000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_call0_v0 : Ref sig .tc := ⟨.hbm, 6, rfl⟩
abbrev main_v0 : Ref sig .tc := ⟨.hbm, 7, rfl⟩
abbrev main_cst_0 : Ref sig .tc := ⟨.hbm, 8, rfl⟩
abbrev main_call1_v0 : Ref sig .tc := ⟨.hbm, 9, rfl⟩
abbrev main_v1 : Ref sig .tc := ⟨.hbm, 10, rfl⟩
abbrev main_cst_1 : Ref sig .tc := ⟨.hbm, 11, rfl⟩
abbrev main_call2_v0 : Ref sig .tc := ⟨.hbm, 12, rfl⟩
abbrev main_v2 : Ref sig .tc := ⟨.hbm, 13, rfl⟩
abbrev main_cst_2 : Ref sig .tc := ⟨.hbm, 14, rfl⟩
abbrev main_call3_v0 : Ref sig .tc := ⟨.hbm, 15, rfl⟩
abbrev main_v3 : Ref sig .tc := ⟨.hbm, 16, rfl⟩
abbrev main_cst_3 : Ref sig .tc := ⟨.hbm, 17, rfl⟩
abbrev main_call4_v0 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg6_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem6_0 : DmaSem sig := 19

abbrev nD : Nat := 1
abbrev τ : Topo := Topo.v7x

variable {F : FTy → Type} [FloatOps F]

abbrev grid0 : Pipeline.Grid := ⟨1, ![63], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![63], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  pads_S4096x8000_S4096x8064_000_0640 : S4096x8000.Pads (![0, 0] : Fin 2 → Nat) ![0, 64] ![0, 0] S4096x8064
  h_S_ : 0 < S_.numel
  inb_S1x1_S1x1_0_0 : ∀ a, (![0, 0] : Fin 2 → Nat) a + S1x1.size a ≤ S1x1.size a
  h_S1x1 : 0 < S1x1.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  iota_S4096x128_d1_w32 : S4096x128.Iotas .tc 32 [1]
  reduces_S4096x128_S128 : S4096x128.Reduces [0] S128
  shapeCasts_S128_S1x128 : S128.ShapeCasts S1x128
  broadcasts_S1x128_S4096x128 : S1x128.Broadcasts S4096x128
  natLt_1_32 : 1 < 32
  shapeCasts_S1x1_S1x1 : S1x1.ShapeCasts S1x1
  shapeCasts_S4096x128_S1x4096x128 : S4096x128.ShapeCasts S1x4096x128
  reduces_S1x4096x128_S1 : S1x4096x128.Reduces [1, 2] S1
  shapeCasts_S1_S1x1x1 : S1.ShapeCasts S1x1x1
  inpos_S1x1x1_p0_0_0 : ∀ a, (![0, 0, 0] : Fin 3 → Nat) a < S1x1x1.size a
  broadcasts_S1x1_S4096x128 : S1x1.Broadcasts S4096x128
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x8064.size a
  hwx0_0 : ∀ i : grid0.Coords, EltTy.bits .f32 = 32 ∨ (Rect.block (s := S4096x8064) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x8064.size a
  hwx0_1 : ∀ i : grid0.Coords, EltTy.bits .f32 = 32 ∨ (Rect.block (s := S4096x8064) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x8064.size a
  hwx0_2 : ∀ i : grid0.Coords, EltTy.bits .f32 = 32 ∨ (Rect.block (s := S4096x8064) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S4096x8064.size a
  hwx1_0 : ∀ i : grid1.Coords, EltTy.bits .f32 = 32 ∨ (Rect.block (s := S4096x8064) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x8064.size a
  hwx1_1 : ∀ i : grid1.Coords, EltTy.bits .f32 = 32 ∨ (Rect.block (s := S4096x8064) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S4096x8064.size a
  hwx1_2 : ∀ i : grid1.Coords, EltTy.bits .f32 = 32 ∨ (Rect.block (s := S4096x8064) S4096x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S4096x8064.size a
  hwx1_3 : ∀ i : grid1.Coords, EltTy.bits .f32 = 32 ∨ (Rect.block (s := S4096x8064) S4096x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x128.size a ≤ S4096x8064.size a
  hwx1_4 : ∀ i : grid1.Coords, EltTy.bits .f32 = 32 ∨ (Rect.block (s := S4096x8064) S4096x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S4096x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S4096x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5_1) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x1.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4096x8000 : Shape := ⟨2, ![4096, 8000]⟩
abbrev S_ : Shape := ⟨0, ![]⟩
abbrev S8000 : Shape := ⟨1, ![8000]⟩
abbrev S1x8000 : Shape := ⟨2, ![1, 8000]⟩

abbrev nBuf : Space → Nat
  | .hbm => 85
  | .vmem => 0
  | .smem => 0
  | _ => 0

abbrev bufTy : (tb : Table) → Fin (tcTables nBuf tb) → BufTy
  | .hbm, ⟨0, _⟩ => ⟨S4096x8000, .f32⟩
  | .hbm, ⟨1, _⟩ => ⟨S4096x8000, .f32⟩
  | .hbm, ⟨2, _⟩ => ⟨S4096x8000, .f32⟩
  | .hbm, ⟨3, _⟩ => ⟨S4096x8000, .f32⟩
  | .hbm, ⟨4, _⟩ => ⟨S4096x8000, .f32⟩
  | .hbm, ⟨5, _⟩ => ⟨S_, .f32⟩
  | .hbm, ⟨6, _⟩ => ⟨S8000, .f32⟩
  | .hbm, ⟨7, _⟩ => ⟨S_, .f32⟩
  | .hbm, ⟨8, _⟩ => ⟨S_, .f32⟩
  | .hbm, ⟨9, _⟩ => ⟨S4096x8000, .f32⟩
  | .hbm, ⟨10, _⟩ => ⟨S4096x8000, .f32⟩
  | .hbm, ⟨11, _⟩ => ⟨S1x8000, .f32⟩
  | .hbm, ⟨12, _⟩ => ⟨S4096x8000, .f32⟩
  | .hbm, ⟨13, _⟩ => ⟨S4096x8000, .f32⟩
  | .hbm, ⟨14, _⟩ => ⟨S4096x8000, .f32⟩
  | .hbm, ⟨15, _⟩ => ⟨S4096x8000, .f32⟩
  | .hbm, ⟨16, _⟩ => ⟨S4096x8000, .i1⟩
  | .hbm, ⟨17, _⟩ => ⟨S4096x8000, .i1⟩
  | .hbm, ⟨18, _⟩ => ⟨S_, .f32⟩
  | .hbm, ⟨19, _⟩ => ⟨S4096x8000, .f32⟩
  | .hbm, ⟨20, _⟩ => ⟨S4096x8000, .f32⟩
  | .hbm, ⟨21, _⟩ => ⟨S4096x8000, .f32⟩
  | .hbm, ⟨22, _⟩ => ⟨S4096x8000, .f32⟩
  | .hbm, ⟨23, _⟩ => ⟨S4096x8000, .f32⟩
  | .hbm, ⟨24, _⟩ => ⟨S4096x8000, .f32⟩
  | .hbm, ⟨25, _⟩ => ⟨S4096x8000, .f32⟩
  | .hbm, ⟨26, _⟩ => ⟨S_, .f32⟩
  | .hbm, ⟨27, _⟩ => ⟨S8000, .f32⟩
  | .hbm, ⟨28, _⟩ => ⟨S_, .f32⟩
  | .hbm, ⟨29, _⟩ => ⟨S_, .f32⟩
  | .hbm, ⟨30, _⟩ => ⟨S4096x8000, .f32⟩
  | .hbm, ⟨31, _⟩ => ⟨S4096x8000, .f32⟩
  | .hbm, ⟨32, _⟩ => ⟨S_, .f32⟩
  | .hbm, ⟨33, _⟩ => ⟨S4096x8000, .f32⟩
  | .hbm, ⟨34, _⟩ => ⟨S4096x8000, .i1⟩
  | .hbm, ⟨35, _⟩ => ⟨S_, .f32⟩
  | .hbm, ⟨36, _⟩ => ⟨S_, .f32⟩
  | .hbm, ⟨37, _⟩ => ⟨S4096x8000, .f32⟩
  | .hbm, ⟨38, _⟩ => ⟨S4096x8000, .f32⟩
  | .hbm, ⟨39, _⟩ => ⟨S_, .f32⟩
  | .hbm, ⟨40, _⟩ => ⟨S8000, .f32⟩
  | .hbm, ⟨41, _⟩ => ⟨S_, .f32⟩
  | .hbm, ⟨42, _⟩ => ⟨S8000, .f32⟩
  | .hbm, ⟨43, _⟩ => ⟨S8000, .f32⟩
  | .hbm, ⟨44, _⟩ => ⟨S_, .f32⟩
  | .hbm, ⟨45, _⟩ => ⟨S_, .f32⟩
  | .hbm, ⟨46, _⟩ => ⟨S4096x8000, .f32⟩
  | .hbm, ⟨47, _⟩ => ⟨S4096x8000, .f32⟩
  | .hbm, ⟨48, _⟩ => ⟨S1x8000, .f32⟩
  | .hbm, ⟨49, _⟩ => ⟨S4096x8000, .f32⟩
  | .hbm, ⟨50, _⟩ => ⟨S4096x8000, .f32⟩
  | .hbm, ⟨51, _⟩ => ⟨S4096x8000, .f32⟩
  | .hbm, ⟨52, _⟩ => ⟨S4096x8000, .f32⟩
  | .hbm, ⟨53, _⟩ => ⟨S4096x8000, .f32⟩
  | .hbm, ⟨54, _⟩ => ⟨S_, .f32⟩
  | .hbm, ⟨55, _⟩ => ⟨S_, .f32⟩
  | .hbm, ⟨56, _⟩ => ⟨S4096x8000, .f32⟩
  | .hbm, ⟨57, _⟩ => ⟨S4096x8000, .f32⟩
  | .hbm, ⟨58, _⟩ => ⟨S4096x8000, .f32⟩
  | .hbm, ⟨59, _⟩ => ⟨S4096x8000, .f32⟩
  | .hbm, ⟨60, _⟩ => ⟨S4096x8000, .f32⟩
  | .hbm, ⟨61, _⟩ => ⟨S4096x8000, .f32⟩
  | .hbm, ⟨62, _⟩ => ⟨S_, .f32⟩
  | .hbm, ⟨63, _⟩ => ⟨S4096x8000, .f32⟩
  | .hbm, ⟨64, _⟩ => ⟨S4096x8000, .f32⟩
  | .hbm, ⟨65, _⟩ => ⟨S_, .f32⟩
  | .hbm, ⟨66, _⟩ => ⟨S4096x8000, .f32⟩
  | .hbm, ⟨67, _⟩ => ⟨S4096x8000, .f32⟩
  | .hbm, ⟨68, _⟩ => ⟨S4096x8000, .f32⟩
  | .hbm, ⟨69, _⟩ => ⟨S4096x8000, .f32⟩
  | .hbm, ⟨70, _⟩ => ⟨S4096x8000, .f32⟩
  | .hbm, ⟨71, _⟩ => ⟨S_, .f32⟩
  | .hbm, ⟨72, _⟩ => ⟨S4096x8000, .f32⟩
  | .hbm, ⟨73, _⟩ => ⟨S4096x8000, .f32⟩
  | .hbm, ⟨74, _⟩ => ⟨S4096x8000, .f32⟩
  | .hbm, ⟨75, _⟩ => ⟨S4096x8000, .f32⟩
  | .hbm, ⟨76, _⟩ => ⟨S4096x8000, .f32⟩
  | .hbm, ⟨77, _⟩ => ⟨S4096x8000, .f32⟩
  | .hbm, ⟨78, _⟩ => ⟨S4096x8000, .f32⟩
  | .hbm, ⟨79, _⟩ => ⟨S_, .f32⟩
  | .hbm, ⟨80, _⟩ => ⟨S8000, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S4096x8000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_call1_v0 : Ref sig .tc := ⟨.hbm, 37, rfl⟩
abbrev main_v20 : Ref sig .tc := ⟨.hbm, 38, rfl⟩
abbrev main_cst_6 : Ref sig .tc := ⟨.hbm, 39, rfl⟩
abbrev main_v21 : Ref sig .tc := ⟨.hbm, 40, rfl⟩
abbrev main_cst_7 : Ref sig .tc := ⟨.hbm, 41, rfl⟩
abbrev main_v22 : Ref sig .tc := ⟨.hbm, 42, rfl⟩
abbrev main_v23 : Ref sig .tc := ⟨.hbm, 43, rfl⟩
abbrev main_cst_8 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_9 : Ref sig .tc := ⟨.hbm, 54, rfl⟩
abbrev main_call3_v0 : Ref sig .tc := ⟨.hbm, 55, rfl⟩
abbrev main_call3_v1 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_10 : Ref sig .tc := ⟨.hbm, 62, rfl⟩
abbrev main_v33 : Ref sig .tc := ⟨.hbm, 63, rfl⟩
abbrev main_v34 : Ref sig .tc := ⟨.hbm, 64, rfl⟩
abbrev main_cst_11 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_12 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_13 : Ref sig .tc := ⟨.hbm, 79, rfl⟩
abbrev main_v47 : Ref sig .tc := ⟨.hbm, 80, rfl⟩
abbrev main_cst_14 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩

abbrev nD : Nat := 1
abbrev τ : Topo := Topo.v7x

variable {F : FTy → Type} [FloatOps F]

class Facts₀ : Prop where
  reducesTo_S4096x8000_S8000_d0 : S4096x8000.ReducesTo [0] S8000
  h_S_ : 0 < S_.numel
  bcast_S_S4096x8000 : S_.BroadcastsInDim S4096x8000 (![] : Fin 0 → Fin S4096x8000.rank)
  bcast_S8000_S1x8000_1 : S8000.BroadcastsInDim S1x8000 (![1] : Fin 1 → Fin S1x8000.rank)
  bcast_S1x8000_S4096x8000_0_1 : S1x8000.BroadcastsInDim S4096x8000 (![0, 1] : Fin 2 → Fin S4096x8000.rank)
  reducesTo_S8000_S_d0 : S8000.ReducesTo [0] S_
  reducesTo_S4096x8000_S_d0_1 : S4096x8000.ReducesTo [0, 1] S_
  bcast_S_S8000 : S_.BroadcastsInDim S8000 (![] : Fin 0 → Fin S8000.rank)

variable [Facts₀]

class Facts : Prop extends Facts₀ where

variable [Facts]
-- ==== Proof.Pieces.lean ====
/-
  What one grid point leaves in the three running accumulators, as the bodies' own arithmetic.

  Each reduction kernel keeps its result in a one-element block that stays in its staging buffer from one tile of
  128 neurons to the next.  At the first tile the body stores a zero, reads it back and adds (or takes the maximum
  with) the tile's contribution; at every later tile it reads what the tile before left.  Here each of those six
  results is written as the body's pure arithmetic applied to the tile's input blocks and to the carried value:
  the last store's payload, its loads read through the whole buffers.
-/
import proofs.«164940_j17970143167413_1_alg».proof.Proof.Gen.KernelIdeal.Frame
import Idealize.ShloMosaic.Lib.Pipeline.Value
import Idealize.ShloMosaic.Lib.Tactic

set_option maxRecDepth 16384

noncomputable section
namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

theorem hz : (![0, 0] : Fin 2 → Nat) = fun _ => 0 := funext fun a => by fin_cases a <;> rfl

/-! ## The first region: the spike sum and the greatest response above its cutoff -/

/-- The tile's spike contribution and its greatest masked response, as functions of the tile's blocks of the
    padded target `x0`, cutoff `x1` and slab probability `x2`. -/
abbrev tileSpike (i : grid0.Coords) (x0 : Vec F S4096x128 .f32) (x1 : Vec F S4096x128 .f32) (x2 : Vec F S4096x128 .f32) : F .f32 := k0_pay10 i x0 x1 x2
abbrev stepMax (i : grid0.Coords) (x0 x1 : Vec F S4096x128 .f32) (prev : Vec F S1x1 .f32) : FVec F S1x1 .f32 :=
  k0_pay2 (k0_pay5 x0) (k0_pay6 i) (k0_pay8 x0 x1) prev

/-- First tile, the sum: the stored zero read back, plus the tile's contribution. -/
theorem spike_first (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x1 .f32) (harg4 : arg4.IsWhole) (arg5 : Memref sig .tc .vmem S1x1 .f32) (harg5 : arg5.IsWhole) (hc0 : cond0_0 i) (x0 : Vec F S4096x128 .f32) (x1 : Vec F S4096x128 .f32) (x2 : Vec F S4096x128 .f32) :
    out0_A_3 (F := F) c i arg1 harg1 arg2 harg2 arg3 harg3 arg4 harg4 arg5 harg5 hc0 x0 x1 x2 = k0_pay1 (k0_pay9 k0_pay3) (tileSpike i x0 x1 x2) := by
  unfold out0_A_3
  rw [View.read_writes_eq_canon _ _ _ (cover0_A_3 c i arg1 harg1 arg2 harg2 arg3 harg3 arg4 harg4 arg5 harg5 hc0 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, View.ld_unit_zero (S := S4096x128) hz, View.ld_unit_zero (S := S1x1) hz]

/-- First tile, the maximum: the stored zero read back, against the tile's greatest masked response. -/
theorem max_first (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x1 .f32) (harg4 : arg4.IsWhole) (arg5 : Memref sig .tc .vmem S1x1 .f32) (harg5 : arg5.IsWhole) (hc0 : cond0_0 i) (x0 : Vec F S4096x128 .f32) (x1 : Vec F S4096x128 .f32) (x2 : Vec F S4096x128 .f32) :
    out0_A_4 (F := F) c i arg1 harg1 arg2 harg2 arg3 harg3 arg4 harg4 arg5 harg5 hc0 x0 x1 x2 = stepMax i x0 x1 k0_pay4 := by
  unfold out0_A_4
  rw [View.read_writes_eq_canon _ _ _ (cover0_A_4 c i arg1 harg1 arg2 harg2 arg3 harg3 arg4 harg4 arg5 harg5 hc0 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, View.ld_unit_zero (S := S4096x128) hz, View.ld_unit_zero (S := S1x1) hz]

/-- A later tile, the sum: what the tile before left, plus the tile's contribution. -/
theorem spike_next (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (x0 : Vec F S4096x128 .f32) (x1 : Vec F S4096x128 .f32) (x2 : Vec F S4096x128 .f32) (xo3 xo4 : Vec F S1x1 .f32) :
    out0_B_3 (F := F) c i arg1 harg1 arg2 harg2 arg3 harg3 arg4 harg4 arg5 harg5 hc0 x0 x1 x2 xo3 xo4 = k0_pay1 (k0_pay9 xo3) (tileSpike i x0 x1 x2) := by
  unfold out0_B_3
  rw [View.read_writes_eq_canon _ _ _ (cover0_B_3 c i arg1 harg1 arg2 harg2 arg3 harg3 arg4 harg4 arg5 harg5 hc0 x0 x1 x2 xo3 xo4)]
  unfold kernelRun0_B
  dsimp only
  sl_unfold_words
  rw [View.canon_unit_zero hz]
  simp only [View.readAt_eq_ld, harg1.read_unread, harg2.read_unread, harg3.read_unread, harg4.read_unread, harg5.read_unread, View.ld_unit_zero (S := S4096x128) hz, View.ld_unit_zero (S := S1x1) hz]

/-- A later tile, the maximum. -/
theorem max_next (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (x0 : Vec F S4096x128 .f32) (x1 : Vec F S4096x128 .f32) (x2 : Vec F S4096x128 .f32) (xo3 xo4 : Vec F S1x1 .f32) :
    out0_B_4 (F := F) c i arg1 harg1 arg2 harg2 arg3 harg3 arg4 harg4 arg5 harg5 hc0 x0 x1 x2 xo3 xo4 = stepMax i x0 x1 xo4 := by
  unfold out0_B_4
  rw [View.read_writes_eq_canon _ _ _ (cover0_B_4 c i arg1 harg1 arg2 harg2 arg3 harg3 arg4 harg4 arg5 harg5 hc0 x0 x1 x2 xo3 xo4)]
  unfold kernelRun0_B
  dsimp only
  sl_unfold_words
  rw [View.canon_unit_zero hz]
  simp only [View.readAt_eq_ld, harg1.read_unread, harg2.read_unread, harg3.read_unread, harg4.read_unread, harg5.read_unread, View.ld_unit_zero (S := S4096x128) hz, View.ld_unit_zero (S := S1x1) hz]

/-! ## The second region: the slab sum -/

/-- The running slab sum after a tile: the body's last payload over the tile's blocks of the padded target `x0`,
    cutoff `x1`, slab probability `x2`, log-mean `x3` and variance `x4`, the first region's maximum `x5` and
    the carried sum `prev`. -/
abbrev stepSlab (i : grid1.Coords) (x0 : Vec F S4096x128 .f32) (x1 : Vec F S4096x128 .f32) (x2 : Vec F S4096x128 .f32) (x3 : Vec F S4096x128 .f32) (x4 : Vec F S4096x128 .f32) (x5 : Vec F S1x1 .f32) (prev : Vec F S1x1 .f32) : FVec F S1x1 .f32 :=
  k1_pay1 (k1_pay3 x0) (k1_pay4 x2) (k1_pay5 x3) (k1_pay6 x4) (k1_pay7 i) (k1_pay8 x0 x1) (k1_pay9 x0 x1) (k1_pay10 x0 x1)
    (k1_pay11 i x0 x1 x5) prev

theorem slab_first (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x1 .f32) (harg6 : arg6.IsWhole) (arg7 : Memref sig .tc .vmem S1x1 .f32) (harg7 : arg7.IsWhole) (hc0 : cond1_0 i) (x0 : Vec F S4096x128 .f32) (x1 : Vec F S4096x128 .f32) (x2 : Vec F S4096x128 .f32) (x3 : Vec F S4096x128 .f32) (x4 : Vec F S4096x128 .f32) (x5 : Vec F S1x1 .f32) :
    out1_A_6 (F := F) c i arg1 harg1 arg2 harg2 arg3 harg3 arg4 harg4 arg5 harg5 arg6 harg6 arg7 harg7 hc0 x0 x1 x2 x3 x4 x5 = stepSlab i x0 x1 x2 x3 x4 x5 k1_pay2 := by
  unfold out1_A_6
  rw [View.read_writes_eq_canon _ _ _ (cover1_A_6 c i arg1 harg1 arg2 harg2 arg3 harg3 arg4 harg4 arg5 harg5 arg6 harg6 arg7 harg7 hc0 x0 x1 x2 x3 x4 x5)]
  unfold kernelRun1_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, View.ld_unit_zero (S := S4096x128) hz, View.ld_unit_zero (S := S1x1) hz]

theorem slab_next (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (x0 : Vec F S4096x128 .f32) (x1 : Vec F S4096x128 .f32) (x2 : Vec F S4096x128 .f32) (x3 : Vec F S4096x128 .f32) (x4 : Vec F S4096x128 .f32) (x5 : Vec F S1x1 .f32) (xo6 : Vec F S1x1 .f32) :
    out1_B_6 (F := F) c i arg1 harg1 arg2 harg2 arg3 harg3 arg4 harg4 arg5 harg5 arg6 harg6 arg7 harg7 hc0 x0 x1 x2 x3 x4 x5 xo6 = stepSlab i x0 x1 x2 x3 x4 x5 xo6 := by
  unfold out1_B_6
  rw [View.read_writes_eq_canon _ _ _ (cover1_B_6 c i arg1 harg1 arg2 harg2 arg3 harg3 arg4 harg4 arg5 harg5 arg6 harg6 arg7 harg7 hc0 x0 x1 x2 x3 x4 x5 xo6)]
  unfold kernelRun1_B
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S4096x128) hz, View.ld_unit_zero (S := S1x1) hz]

end Cert.KernelIdeal.Pieces
end
-- ==== Proof.Acc.lean ====
/-
  The three accumulators after all 63 tiles.

  The sum block, the maximum block (first region) and the slab-sum block (second region) each stay in a staging
  buffer over the whole grid and are written back once, after the last tile.  By induction on the tile, what such
  a block holds after tile `n` is the body's step applied `n + 1` times from the stored zero; the one write-back
  of the last tile then makes that the whole one-element result array.
-/
import proofs.«164940_j17970143167413_1_alg».proof.Proof.Pieces

set_option maxRecDepth 16384

noncomputable section
namespace Cert.KernelIdeal.Acc

open Idealize.ShloMosaic Idealize.ShloMosaic.TcCoe Idealize.SL.Sem
open Idealize.ShloMosaic.Pipeline (Dat)
open Cert.KernelIdeal Cert.KernelIdeal.Gen Cert.KernelIdeal.Pieces

variable {F : FTy → Type} [FloatOps F]
variable (V : (c : Dev nD) → (b : Ref sig .tc) → Buf (Elt F) ((c : Thread nD τ).loc b))

/-! ## First region -/

/-- The (sum, maximum) pair after tile `n`: the steps folded from the stored zeros. -/
def run0 (c : Dev nD) : (n : ℕ) → n < cfg0.N → Vec F S1x1 .f32 × Vec F S1x1 .f32
  | 0, h =>
    (k0_pay1 (k0_pay9 k0_pay3) (tileSpike (grid0.coords ⟨0, h⟩) (iblk0 V c 0 ⟨0, h⟩) (iblk0 V c 1 ⟨0, h⟩) (iblk0 V c 2 ⟨0, h⟩)),
     stepMax (grid0.coords ⟨0, h⟩) (iblk0 V c 0 ⟨0, h⟩) (iblk0 V c 1 ⟨0, h⟩) k0_pay4)
  | n + 1, h =>
    (k0_pay1 (k0_pay9 (run0 c n (Nat.lt_of_succ_lt h)).1)
        (tileSpike (grid0.coords ⟨n + 1, h⟩) (iblk0 V c 0 ⟨n + 1, h⟩) (iblk0 V c 1 ⟨n + 1, h⟩) (iblk0 V c 2 ⟨n + 1, h⟩)),
     stepMax (grid0.coords ⟨n + 1, h⟩) (iblk0 V c 0 ⟨n + 1, h⟩) (iblk0 V c 1 ⟨n + 1, h⟩) (run0 c n (Nat.lt_of_succ_lt h)).2)

theorem outsAt0_eq (c : Dev nD) : ∀ (n : ℕ) (h : n < cfg0.N), outsAt0 V c n h = run0 V c n h
  | 0, h => by
    rw [outsAt0_A V c ⟨0, h⟩ rfl, spike_first, max_first]
    rfl
  | n + 1, h => by
    have hN : cfg0.N = 63 := N_0
    have hB : ¬(⟨n + 1, h⟩ : Fin cfg0.N).val % 63 = 0 := by dsimp only; omega
    rw [outsAt0_B V c ⟨n + 1, h⟩ hB, spike_next, max_next]
    show (k0_pay1 (k0_pay9 (outsAt0 V c n _).1) _, stepMax _ _ _ (outsAt0 V c n _).2) = _
    rw [outsAt0_eq c n]
    rfl

/-! ## Second region -/

/-- The slab sum after tile `n`. -/
def run1 (c : Dev nD) : (n : ℕ) → n < cfg1.N → Vec F S1x1 .f32
  | 0, h =>
    stepSlab (grid1.coords ⟨0, h⟩) (iblk1 V c 0 ⟨0, h⟩) (iblk1 V c 1 ⟨0, h⟩) (iblk1 V c 2 ⟨0, h⟩) (iblk1 V c 3 ⟨0, h⟩)
      (iblk1 V c 4 ⟨0, h⟩) (iblk1 V c 5 ⟨0, h⟩) k1_pay2
  | n + 1, h =>
    stepSlab (grid1.coords ⟨n + 1, h⟩) (iblk1 V c 0 ⟨n + 1, h⟩) (iblk1 V c 1 ⟨n + 1, h⟩) (iblk1 V c 2 ⟨n + 1, h⟩)
      (iblk1 V c 3 ⟨n + 1, h⟩) (iblk1 V c 4 ⟨n + 1, h⟩) (iblk1 V c 5 ⟨n + 1, h⟩) (run1 c n (Nat.lt_of_succ_lt h))

theorem outsAt1_eq (c : Dev nD) : ∀ (n : ℕ) (h : n < cfg1.N), outsAt1 V c n h = run1 V c n h
  | 0, h => by
    rw [outsAt1_A V c ⟨0, h⟩ rfl, slab_first]
    rfl
  | n + 1, h => by
    have hN : cfg1.N = 63 := N_1
    have hB : ¬(⟨n + 1, h⟩ : Fin cfg1.N).val % 63 = 0 := by dsimp only; omega
    rw [outsAt1_B V c ⟨n + 1, h⟩ hB, slab_next]
    show stepSlab _ _ _ _ _ _ _ (outsAt1 V c n _) = _
    rw [outsAt1_eq c n]
    rfl

end Cert.KernelIdeal.Acc
end
-- ==== Proof.Arrays.lean ====
/-
  The three result arrays after their regions.

  Each accumulator's block is the whole one-element array, and the pipeline writes it back exactly once, after the
  last of the 63 tiles; so the array ends holding what the block holds after tile 62.
-/
import proofs.«164940_j17970143167413_1_alg».proof.Proof.Acc

set_option maxRecDepth 16384

noncomputable section
namespace Cert.KernelIdeal.Arrays

open Idealize.ShloMosaic Idealize.ShloMosaic.TcCoe Idealize.SL.Sem
open Idealize.ShloMosaic.Pipeline (Dat)
open Cert.KernelIdeal Cert.KernelIdeal.Gen Cert.KernelIdeal.Pieces Cert.KernelIdeal.Acc

variable {F : FTy → Type} [FloatOps F]
variable (V : (c : Dev nD) → (b : Ref sig .tc) → Buf (Elt F) ((c : Thread nD τ).loc b))

/-- The last tile of each grid. -/
def last0 : Fin grid0.N := ⟨62, by rw [N_0]; decide⟩
def last1 : Fin grid1.N := ⟨62, by rw [N_1]; decide⟩

/-- The spike sum after the last tile, as the contents of its result array. -/
abbrev spikeRes (c : Dev nD) : Buf (Elt F) ((c : Thread nD τ).loc main_v5_0) := (run0 V c 62 last0.isLt).1

theorem flushed0_3 (c : Dev nD) (t : Fin cfg0.N) (hf : (cfg0.win 3).flush t = true) :
    (dat0 V c).flushed 3 t = ((cfg0.win 3).blk t).view.read (Elt F) (spikeRes V c) := by
  have hN : cfg0.N = 63 := N_0
  have h3 : t.val = 62 := by have := (flush0_3 t).mp hf; have := t.isLt; omega
  obtain rfl : t = last0 := Fin.ext h3
  show (cfg0.win 3).cut (grid0.coords last0) ((dat0 V c).after 3 last0) = _
  rw [after0_3, outsAt0_eq]
  have hz' : (fun a => win0_3.index last0 a * main_v5_0.ty.shape.size a) = fun _ => 0 := funext fun a => by fin_cases a <;> decide
  exact (Memref.read_access_unit_zero (Elt F) main_v5_0 hz' (fun a => by rw [congrFun hz' a]; simp) (spikeRes V c)).symm

theorem spikeRes_array (c : Dev nD) : (dat0 V c).arrAt 3 cfg0.N = spikeRes V c :=
  (dat0 V c).arrAt_eq_of_cover 3 (spikeRes V c) (flushed0_3 V c) fun i =>
    ⟨last0, (flush0_3 last0).mpr rfl, by
      show i ∈ ((View.whole main_v5_0).slice (win0_3.rect last0)).set
      rw [View.set_slice_whole, Rect.mem_set_unit]
      intro a
      have h0 : (i 0 : Nat) < 1 := (i 0).isLt
      have h1 : (i 1 : Nat) < 1 := (i 1).isLt
      match a with
      | ⟨0, _⟩ => show win0_3.index last0 0 * win0_3.size 0 ≤ (i 0 : Nat) ∧ (i 0 : Nat) < win0_3.index last0 0 * win0_3.size 0 + win0_3.xsize (grid0.coords last0) 0
                  rw [show win0_3.index last0 0 * win0_3.size 0 = 0 from by decide +kernel, show win0_3.xsize (grid0.coords last0) 0 = 1 from by decide +kernel]; omega
      | ⟨1, _⟩ => show win0_3.index last0 1 * win0_3.size 1 ≤ (i 1 : Nat) ∧ (i 1 : Nat) < win0_3.index last0 1 * win0_3.size 1 + win0_3.xsize (grid0.coords last0) 1
                  rw [show win0_3.index last0 1 * win0_3.size 1 = 0 from by decide +kernel, show win0_3.xsize (grid0.coords last0) 1 = 1 from by decide +kernel]; omega⟩

/-- The greatest response above its cutoff after the last tile, as the contents of its result array. -/
abbrev maxRes (c : Dev nD) : Buf (Elt F) ((c : Thread nD τ).loc main_v5_1) := (run0 V c 62 last0.isLt).2

theorem flushed0_4 (c : Dev nD) (t : Fin cfg0.N) (hf : (cfg0.win 4).flush t = true) :
    (dat0 V c).flushed 4 t = ((cfg0.win 4).blk t).view.read (Elt F) (maxRes V c) := by
  have hN : cfg0.N = 63 := N_0
  have h3 : t.val = 62 := by have := (flush0_4 t).mp hf; have := t.isLt; omega
  obtain rfl : t = last0 := Fin.ext h3
  show (cfg0.win 4).cut (grid0.coords last0) ((dat0 V c).after 4 last0) = _
  rw [after0_4, outsAt0_eq]
  have hz' : (fun a => win0_4.index last0 a * main_v5_1.ty.shape.size a) = fun _ => 0 := funext fun a => by fin_cases a <;> decide
  exact (Memref.read_access_unit_zero (Elt F) main_v5_1 hz' (fun a => by rw [congrFun hz' a]; simp) (maxRes V c)).symm

theorem maxRes_array (c : Dev nD) : (dat0 V c).arrAt 4 cfg0.N = maxRes V c :=
  (dat0 V c).arrAt_eq_of_cover 4 (maxRes V c) (flushed0_4 V c) fun i =>
    ⟨last0, (flush0_4 last0).mpr rfl, by
      show i ∈ ((View.whole main_v5_1).slice (win0_4.rect last0)).set
      rw [View.set_slice_whole, Rect.mem_set_unit]
      intro a
      have h0 : (i 0 : Nat) < 1 := (i 0).isLt
      have h1 : (i 1 : Nat) < 1 := (i 1).isLt
      match a with
      | ⟨0, _⟩ => show win0_4.index last0 0 * win0_4.size 0 ≤ (i 0 : Nat) ∧ (i 0 : Nat) < win0_4.index last0 0 * win0_4.size 0 + win0_4.xsize (grid0.coords last0) 0
                  rw [show win0_4.index last0 0 * win0_4.size 0 = 0 from by decide +kernel, show win0_4.xsize (grid0.coords last0) 0 = 1 from by decide +kernel]; omega
      | ⟨1, _⟩ => show win0_4.index last0 1 * win0_4.size 1 ≤ (i 1 : Nat) ∧ (i 1 : Nat) < win0_4.index last0 1 * win0_4.size 1 + win0_4.xsize (grid0.coords last0) 1
                  rw [show win0_4.index last0 1 * win0_4.size 1 = 0 from by decide +kernel, show win0_4.xsize (grid0.coords last0) 1 = 1 from by decide +kernel]; omega⟩

/-- The slab sum after the last tile, as the contents of its result array. -/
abbrev slabRes (c : Dev nD) : Buf (Elt F) ((c : Thread nD τ).loc main_v6) := run1 V c 62 last1.isLt

theorem flushed1_6 (c : Dev nD) (t : Fin cfg1.N) (hf : (cfg1.win 6).flush t = true) :
    (dat1 V c).flushed 6 t = ((cfg1.win 6).blk t).view.read (Elt F) (slabRes V c) := by
  have hN : cfg1.N = 63 := N_1
  have h3 : t.val = 62 := by have := (flush1_6 t).mp hf; have := t.isLt; omega
  obtain rfl : t = last1 := Fin.ext h3
  show (cfg1.win 6).cut (grid1.coords last1) ((dat1 V c).after 6 last1) = _
  rw [after1_6, outsAt1_eq]
  have hz' : (fun a => win1_6.index last1 a * main_v6.ty.shape.size a) = fun _ => 0 := funext fun a => by fin_cases a <;> decide
  exact (Memref.read_access_unit_zero (Elt F) main_v6 hz' (fun a => by rw [congrFun hz' a]; simp) (slabRes V c)).symm

theorem slabRes_array (c : Dev nD) : (dat1 V c).arrAt 6 cfg1.N = slabRes V c :=
  (dat1 V c).arrAt_eq_of_cover 6 (slabRes V c) (flushed1_6 V c) fun i =>
    ⟨last1, (flush1_6 last1).mpr rfl, by
      show i ∈ ((View.whole main_v6).slice (win1_6.rect last1)).set
      rw [View.set_slice_whole, Rect.mem_set_unit]
      intro a
      have h0 : (i 0 : Nat) < 1 := (i 0).isLt
      have h1 : (i 1 : Nat) < 1 := (i 1).isLt
      match a with
      | ⟨0, _⟩ => show win1_6.index last1 0 * win1_6.size 0 ≤ (i 0 : Nat) ∧ (i 0 : Nat) < win1_6.index last1 0 * win1_6.size 0 + win1_6.xsize (grid1.coords last1) 0
                  rw [show win1_6.index last1 0 * win1_6.size 0 = 0 from by decide +kernel, show win1_6.xsize (grid1.coords last1) 0 = 1 from by decide +kernel]; omega
      | ⟨1, _⟩ => show win1_6.index last1 1 * win1_6.size 1 ≤ (i 1 : Nat) ∧ (i 1 : Nat) < win1_6.index last1 1 * win1_6.size 1 + win1_6.xsize (grid1.coords last1) 1
                  rw [show win1_6.index last1 1 * win1_6.size 1 = 0 from by decide +kernel, show win1_6.xsize (grid1.coords last1) 1 = 1 from by decide +kernel]; omega⟩

end Cert.KernelIdeal.Arrays
end
-- ==== Proof.Blocks.lean ====
/-
  What a tile reads.

  Every input window of both regions takes, at tile `t`, the block of all 4096 trials by neurons
  `128·t … 128·t + 127` of its padded array: entry (r, l) of the block is entry (r, 128·t + l) of the array.
  The second region's sixth window is the first region's one-element maximum, whole at every tile.
-/
import proofs.«164940_j17970143167413_1_alg».proof.Proof.Gen.KernelIdeal.Frame
import Idealize.ShloMosaic.Lib.Pipeline.Value
import Idealize.ShloMosaic.Lib.ValueIdx

set_option maxRecDepth 16384

noncomputable section
namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (V : (c : Dev nD) → (b : Ref sig .tc) → Buf (Elt F) ((c : Thread nD τ).loc b))

/-! ## First region -/

theorem idx0_0 : ∀ t : Fin cfg0.N, win0_0.index t (0 : Fin 2) = 0 ∧ win0_0.index t (1 : Fin 2) = t.val :=
  (by decide +kernel : ∀ t : Fin grid0.N, _)

theorem blk0_0 (c : Dev nD) (t : Fin cfg0.N) (r : Fin 4096) (l : Fin 128) (h : 128 * t.val + l.val < 8064) :
    (iblk0 V c 0 t : Vec F S4096x128 .f32) (ix2 r l) = (V c main_v0 : S4096x8064.Idx → Elt F .f32) (ix2 r ⟨128 * t.val + l.val, h⟩) := by
  unfold iblk0
  rw [View.read_apply]
  show V c main_v0 _ = V c main_v0 _
  congr 1
  funext a
  apply Fin.ext
  match a with
  | ⟨0, _⟩ => show win0_0.index t 0 * 4096 + 1 * r.val = r.val; rw [(idx0_0 t).1]; omega
  | ⟨1, _⟩ => show win0_0.index t 1 * 128 + 1 * l.val = 128 * t.val + l.val; rw [(idx0_0 t).2]; omega

theorem idx0_1 : ∀ t : Fin cfg0.N, win0_1.index t (0 : Fin 2) = 0 ∧ win0_1.index t (1 : Fin 2) = t.val :=
  (by decide +kernel : ∀ t : Fin grid0.N, _)

theorem blk0_1 (c : Dev nD) (t : Fin cfg0.N) (r : Fin 4096) (l : Fin 128) (h : 128 * t.val + l.val < 8064) :
    (iblk0 V c 1 t : Vec F S4096x128 .f32) (ix2 r l) = (V c main_v1 : S4096x8064.Idx → Elt F .f32) (ix2 r ⟨128 * t.val + l.val, h⟩) := by
  unfold iblk0
  rw [View.read_apply]
  show V c main_v1 _ = V c main_v1 _
  congr 1
  funext a
  apply Fin.ext
  match a with
  | ⟨0, _⟩ => show win0_1.index t 0 * 4096 + 1 * r.val = r.val; rw [(idx0_1 t).1]; omega
  | ⟨1, _⟩ => show win0_1.index t 1 * 128 + 1 * l.val = 128 * t.val + l.val; rw [(idx0_1 t).2]; omega

theorem idx0_2 : ∀ t : Fin cfg0.N, win0_2.index t (0 : Fin 2) = 0 ∧ win0_2.index t (1 : Fin 2) = t.val :=
  (by decide +kernel : ∀ t : Fin grid0.N, _)

theorem blk0_2 (c : Dev nD) (t : Fin cfg0.N) (r : Fin 4096) (l : Fin 128) (h : 128 * t.val + l.val < 8064) :
    (iblk0 V c 2 t : Vec F S4096x128 .f32) (ix2 r l) = (V c main_v2 : S4096x8064.Idx → Elt F .f32) (ix2 r ⟨128 * t.val + l.val, h⟩) := by
  unfold iblk0
  rw [View.read_apply]
  show V c main_v2 _ = V c main_v2 _
  congr 1
  funext a
  apply Fin.ext
  match a with
  | ⟨0, _⟩ => show win0_2.index t 0 * 4096 + 1 * r.val = r.val; rw [(idx0_2 t).1]; omega
  | ⟨1, _⟩ => show win0_2.index t 1 * 128 + 1 * l.val = 128 * t.val + l.val; rw [(idx0_2 t).2]; omega

/-! ## Second region -/

theorem idx1_0 : ∀ t : Fin cfg1.N, win1_0.index t (0 : Fin 2) = 0 ∧ win1_0.index t (1 : Fin 2) = t.val :=
  (by decide +kernel : ∀ t : Fin grid1.N, _)

theorem blk1_0 (c : Dev nD) (t : Fin cfg1.N) (r : Fin 4096) (l : Fin 128) (h : 128 * t.val + l.val < 8064) :
    (iblk1 V c 0 t : Vec F S4096x128 .f32) (ix2 r l) = (V c main_v0 : S4096x8064.Idx → Elt F .f32) (ix2 r ⟨128 * t.val + l.val, h⟩) := by
  unfold iblk1
  rw [View.read_apply]
  show V c main_v0 _ = V c main_v0 _
  congr 1
  funext a
  apply Fin.ext
  match a with
  | ⟨0, _⟩ => show win1_0.index t 0 * 4096 + 1 * r.val = r.val; rw [(idx1_0 t).1]; omega
  | ⟨1, _⟩ => show win1_0.index t 1 * 128 + 1 * l.val = 128 * t.val + l.val; rw [(idx1_0 t).2]; omega

theorem idx1_1 : ∀ t : Fin cfg1.N, win1_1.index t (0 : Fin 2) = 0 ∧ win1_1.index t (1 : Fin 2) = t.val :=
  (by decide +kernel : ∀ t : Fin grid1.N, _)

theorem blk1_1 (c : Dev nD) (t : Fin cfg1.N) (r : Fin 4096) (l : Fin 128) (h : 128 * t.val + l.val < 8064) :
    (iblk1 V c 1 t : Vec F S4096x128 .f32) (ix2 r l) = (V c main_v1 : S4096x8064.Idx → Elt F .f32) (ix2 r ⟨128 * t.val + l.val, h⟩) := by
  unfold iblk1
  rw [View.read_apply]
  show V c main_v1 _ = V c main_v1 _
  congr 1
  funext a
  apply Fin.ext
  match a with
  | ⟨0, _⟩ => show win1_1.index t 0 * 4096 + 1 * r.val = r.val; rw [(idx1_1 t).1]; omega
  | ⟨1, _⟩ => show win1_1.index t 1 * 128 + 1 * l.val = 128 * t.val + l.val; rw [(idx1_1 t).2]; omega

theorem idx1_2 : ∀ t : Fin cfg1.N, win1_2.index t (0 : Fin 2) = 0 ∧ win1_2.index t (1 : Fin 2) = t.val :=
  (by decide +kernel : ∀ t : Fin grid1.N, _)

theorem blk1_2 (c : Dev nD) (t : Fin cfg1.N) (r : Fin 4096) (l : Fin 128) (h : 128 * t.val + l.val < 8064) :
    (iblk1 V c 2 t : Vec F S4096x128 .f32) (ix2 r l) = (V c main_v2 : S4096x8064.Idx → Elt F .f32) (ix2 r ⟨128 * t.val + l.val, h⟩) := by
  unfold iblk1
  rw [View.read_apply]
  show V c main_v2 _ = V c main_v2 _
  congr 1
  funext a
  apply Fin.ext
  match a with
  | ⟨0, _⟩ => show win1_2.index t 0 * 4096 + 1 * r.val = r.val; rw [(idx1_2 t).1]; omega
  | ⟨1, _⟩ => show win1_2.index t 1 * 128 + 1 * l.val = 128 * t.val + l.val; rw [(idx1_2 t).2]; omega

theorem idx1_3 : ∀ t : Fin cfg1.N, win1_3.index t (0 : Fin 2) = 0 ∧ win1_3.index t (1 : Fin 2) = t.val :=
  (by decide +kernel : ∀ t : Fin grid1.N, _)

theorem blk1_3 (c : Dev nD) (t : Fin cfg1.N) (r : Fin 4096) (l : Fin 128) (h : 128 * t.val + l.val < 8064) :
    (iblk1 V c 3 t : Vec F S4096x128 .f32) (ix2 r l) = (V c main_v3 : S4096x8064.Idx → Elt F .f32) (ix2 r ⟨128 * t.val + l.val, h⟩) := by
  unfold iblk1
  rw [View.read_apply]
  show V c main_v3 _ = V c main_v3 _
  congr 1
  funext a
  apply Fin.ext
  match a with
  | ⟨0, _⟩ => show win1_3.index t 0 * 4096 + 1 * r.val = r.val; rw [(idx1_3 t).1]; omega
  | ⟨1, _⟩ => show win1_3.index t 1 * 128 + 1 * l.val = 128 * t.val + l.val; rw [(idx1_3 t).2]; omega

theorem idx1_4 : ∀ t : Fin cfg1.N, win1_4.index t (0 : Fin 2) = 0 ∧ win1_4.index t (1 : Fin 2) = t.val :=
  (by decide +kernel : ∀ t : Fin grid1.N, _)

theorem blk1_4 (c : Dev nD) (t : Fin cfg1.N) (r : Fin 4096) (l : Fin 128) (h : 128 * t.val + l.val < 8064) :
    (iblk1 V c 4 t : Vec F S4096x128 .f32) (ix2 r l) = (V c main_v4 : S4096x8064.Idx → Elt F .f32) (ix2 r ⟨128 * t.val + l.val, h⟩) := by
  unfold iblk1
  rw [View.read_apply]
  show V c main_v4 _ = V c main_v4 _
  congr 1
  funext a
  apply Fin.ext
  match a with
  | ⟨0, _⟩ => show win1_4.index t 0 * 4096 + 1 * r.val = r.val; rw [(idx1_4 t).1]; omega
  | ⟨1, _⟩ => show win1_4.index t 1 * 128 + 1 * l.val = 128 * t.val + l.val; rw [(idx1_4 t).2]; omega

theorem idx1_5 : ∀ t : Fin cfg1.N, win1_5.index t (0 : Fin 2) = 0 ∧ win1_5.index t (1 : Fin 2) = 0 :=
  (by decide +kernel : ∀ t : Fin grid1.N, _)

/-- The maximum's block is its whole array at every tile. -/
theorem blk1_5 (c : Dev nD) (t : Fin cfg1.N) :
    (iblk1 V c 5 t : Vec F S1x1 .f32) (ix2 0 0) = (V c main_v5_1 : S1x1.Idx → Elt F .f32) (ix2 0 0) := by
  unfold iblk1
  rw [View.read_apply]
  show V c main_v5_1 _ = V c main_v5_1 _
  congr 1
  funext a
  apply Fin.ext
  match a with
  | ⟨0, _⟩ => show win1_5.index t 0 * 1 + 1 * 0 = 0; rw [(idx1_5 t).1]
  | ⟨1, _⟩ => show win1_5.index t 1 * 1 + 1 * 0 = 0; rw [(idx1_5 t).2]

/-- The grid coordinate of tile `t` is `t`. -/
theorem coord0 : ∀ t : Fin cfg0.N, ((grid0.coords t) 0).val = t.val := (by decide +kernel : ∀ t : Fin grid0.N, _)
theorem coord1 : ∀ t : Fin cfg1.N, ((grid1.coords t) 0).val = t.val := (by decide +kernel : ∀ t : Fin grid1.N, _)

end Cert.KernelIdeal.Blocks
end
-- ==== Proof.Spec.lean ====
/-
  The zero-inflated log-normal loss as ONE function of the five argument arrays, on the extended reals.

  For trial `i` (4096 of them) and neuron `j` (8000): the cutoff `loc` is clamped into `[0, max_i target i j]`;
  a response at or below the clamped cutoff contributes the spike term `log (1 - q) - log cutoff`, one above it
  the slab term, a log-normal density of `target - cutoff'` where `cutoff'` is the cutoff clamped once more,
  into `[0, 0.999 · m_j]`, `m_j` the least response of neuron `j` above its cutoff (a response not above it
  counting as the greatest such response of the whole array).  The loss is minus the sum of all terms.
  The literal words stay unevaluated: both programs carry the same ones.
-/
import Idealize.ShloMosaic.PureOps.Ideal
import Idealize.ShloMosaic.PureOps.Ideal.Laws
import Idealize.ShloMosaic.Lib.ValueIdx

noncomputable section

namespace Cert.Spec

open Idealize.ShloMosaic

/-- The literal 1.0, 0.999, log 2π, 0.5 and 2.0 as both programs spell them. -/
abbrev one : EReal := Ideal.ofBits .f32 0x3F800000#32
abbrev c999 : EReal := Ideal.ofBits .f32 0x3F7FBE77#32
abbrev cL2PI : EReal := Ideal.ofBits .f32 0x3FEB3F8E#32
abbrev chalf : EReal := Ideal.ofBits .f32 0x3F000000#32
abbrev ctwo : EReal := Ideal.ofBits .f32 0x40000000#32

/-- A comparison's bit as the number 0 or 1. -/
def ind (b : BitVec 1) : EReal := if b = 1#1 then 1 else 0

/-- The greatest, and the least, of finitely many extended reals. -/
def colMax {n : Nat} (t : Fin n → EReal) : EReal := Finset.univ.fold max ⊥ t
def colMin {n : Nat} (t : Fin n → EReal) : EReal := Finset.univ.fold min ⊤ t

/-- `x` clamped into `[0, hi]`, the upper bound applied last. -/
def clip (hi x : EReal) : EReal := min hi (max 0 x)

/-- The spike term of one entry: `cm` its column's greatest response, `t l q` its response, cutoff and slab probability. -/
def spikeE (cm t l q : EReal) : EReal :=
  (Ideal.log (one - q) - Ideal.log (clip cm l)) * ind (Ideal.cmp .ole t (clip cm l))

/-- The response where it exceeds the clamped cutoff, else 0. -/
def nzE (cm t l : EReal) : EReal := t * ind (Ideal.cmp .ogt t (clip cm l))

/-- A zero replaced by `g`. -/
def repE (g x : EReal) : EReal := if Ideal.cmp .oeq x 0 = 1#1 then g else x

/-- The slab term of one entry: `cn` its column's least replaced response. -/
def slabE (cm cn t l q mu s2 : EReal) : EReal :=
  (Ideal.log q - chalf * (cL2PI + Ideal.log s2)
      - Ideal.div ((Ideal.log (if Ideal.cmp .ogt t (clip cm l) = 1#1 then t - clip (cn * c999) (clip cm l) else one) - mu)
                    * (Ideal.log (if Ideal.cmp .ogt t (clip cm l) = 1#1 then t - clip (cn * c999) (clip cm l) else one) - mu))
                  (ctwo * s2)
      + -Ideal.log (if Ideal.cmp .ogt t (clip cm l) = 1#1 then t - clip (cn * c999) (clip cm l) else one))
    * ind (Ideal.cmp .ogt t (clip cm l))

section Whole
variable (T MU S2 LOC Q : Fin 4096 → Fin 8000 → EReal)

/-- Neuron `j`'s greatest response. -/
def cmax (j : Fin 8000) : EReal := colMax fun i => T i j
/-- The greatest response above its cutoff, over the whole array (0 where none is). -/
def gmax : EReal := Finset.univ.fold max ⊥ fun p : Fin 4096 × Fin 8000 => nzE (cmax T p.2) (T p.1 p.2) (LOC p.1 p.2)
/-- Neuron `j`'s least response above its cutoff. -/
def cmin (j : Fin 8000) : EReal := colMin fun i => repE (gmax T LOC) (nzE (cmax T j) (T i j) (LOC i j))
/-- The two partial sums and the loss. -/
def spikeSum : EReal := ∑ j : Fin 8000, ∑ i : Fin 4096, spikeE (cmax T j) (T i j) (LOC i j) (Q i j)
def slabSum : EReal :=
  ∑ j : Fin 8000, ∑ i : Fin 4096, slabE (cmax T j) (cmin T LOC j) (T i j) (LOC i j) (Q i j) (MU i j) (S2 i j)
def loss : EReal := -(spikeSum T LOC Q + slabSum T MU S2 LOC Q)

end Whole

end Cert.Spec

end
-- ==== Proof.TileTotal.lean ====
/-
  The sum of all entries of a tile.

  Both sum kernels reduce a [4096, 128] tile to one number by viewing it as [1, 4096, 128] and summing over the last
  two axes.  The view only renames positions, so on the extended reals, where addition is commutative and
  associative, the result is the sum of the tile's entries in any order: here over lanes, then trials.
-/
import proofs.«164940_j17970143167413_1_alg».proof.Proof.Gen.KernelIdeal.Skeleton
import Idealize.ShloMosaic.PureOps.Ideal.Laws
import Idealize.ShloMosaic.Lib.ValueIdx
import Idealize.ShloMosaic.Lib.Pipeline.Value

set_option maxRecDepth 16384

noncomputable section
namespace Cert.KernelIdeal.TileTotal

open Idealize.ShloMosaic Idealize.ShloMosaic.ValueIdx
open Cert.KernelIdeal Cert.KernelIdeal.Gen

theorem tileTotal (v : Vec Ideal S4096x128 .f32) :
    extractAt ![0, 0, 0]
        (shapeCast S1x1x1
          (multiReduction (F := Ideal) .add [1, 2] S1 (shapeCast S1x4096x128 v shapeCasts_S4096x128_S1x4096x128) 0x00000000#32
            reduces_S1x4096x128_S1 (.inl rfl) rfl)
          shapeCasts_S1_S1x1x1)
        inpos_S1x1x1_p0_0_0
      = ∑ l : Fin 128, ∑ r : Fin 4096, v (ix2 r l) := by
  unfold extractAt
  rw [shapeCast_apply _ _ _ (ix1 (0 : Fin 1)) (by decide)]
  refine (Ideal.multiReduction_add_total _ _ reduces_S1x4096x128_S1 (by decide) _ _ (ix1 0)).trans ?_
  unfold shapeCast
  rw [Equiv.sum_comp (Shape.reshapeEquiv _) v, sum_idx2, Finset.sum_comm]

end Cert.KernelIdeal.TileTotal
end
-- ==== Proof.TileIdeal.lean ====
/-
  One tile's step of each accumulator, read on the extended reals.

  A tile is 128 consecutive neurons (all 4096 trials of each) of the arrays padded to 8064 neurons; neuron
  `128 · tile + lane` is a real one when that number is below 8000.  Each step is the carried value combined with
  the tile's contribution, and the contribution is a sum (or a maximum) over the tile's entries of the entry's
  term where the neuron is real, of zero where it is padding.  A neuron's greatest response is taken within the
  tile, which holds the neuron's whole column.
-/
import proofs.«164940_j17970143167413_1_alg».proof.Proof.Pieces
import proofs.«164940_j17970143167413_1_alg».proof.Proof.Spec
import proofs.«164940_j17970143167413_1_alg».proof.Proof.TileTotal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section
namespace Cert.KernelIdeal.TileIdeal

open Idealize.ShloMosaic Idealize.ShloMosaic.ValueIdx
open Cert.KernelIdeal Cert.KernelIdeal.Gen Cert.KernelIdeal.Pieces

/-- The greatest response of the neuron in lane `l` of a target block. -/
abbrev laneMax (x0 : Vec Ideal S4096x128 .f32) (l : Fin 128) : EReal := Cert.Spec.colMax fun r' : Fin 4096 => x0 (ix2 r' l)

/-! ## Words and literals -/

/-- The maximum's and the minimum's starting words are the two infinities. -/
theorem ofBits_negInf : Ideal.ofBits .f32 0xFF800000#32 = ⊥ := by simp [Ideal.ofBits, Ideal.ieee]
theorem ofBits_posInf : Ideal.ofBits .f32 0x7F800000#32 = ⊤ := by simp [Ideal.ofBits, Ideal.ieee]

/-- A splatted scalar literal is the extended real its word denotes (stated for a variable word, so that a literal is
    rewritten, never evaluated). -/
theorem scalar_ofBits (b : BitVec 32) : Scalar.ofBits (F := Ideal) .f32 b = Ideal.ofBits .f32 b := rfl

/-- The logarithm of a vector at an index. -/
theorem log_apply {s : Shape} {φ : FTy} (a : FVec Ideal s φ) (i : s.Idx) : Idealize.ShloMosaic.log a i = Ideal.log (a i) := rfl

/-- A comparison's bit, widened and converted, is the number 0 or 1. -/
theorem mask_eq (b : BitVec 1) : (FloatOps.sitofp (F := Ideal) .f32 (b.setWidth 32) : EReal) = Cert.Spec.ind b := by
  rcases BitVec.eq_zero_or_eq_one b with h | h
  · subst h
    show (((BitVec.setWidth 32 0#1).toInt : ℝ) : EReal) = _
    rw [show (BitVec.setWidth 32 0#1).toInt = 0 from by decide]
    simp [Cert.Spec.ind]
  · subst h
    show (((BitVec.setWidth 32 1#1).toInt : ℝ) : EReal) = _
    rw [show (BitVec.setWidth 32 1#1).toInt = 1 from by decide]
    simp [Cert.Spec.ind]

/-- A select on a decided condition. -/
theorem select_ite {α : Type} (P : Prop) [Decidable P] (a b : α) :
    Scalar.select (if P then 1#1 else 0#1) a b = if P then a else b := by
  by_cases h : P
  · rw [if_pos h, if_pos h]; exact select_one a b
  · rw [if_neg h, if_neg h]; exact select_zero a b

/-- Neuron `128 · n + l` of tile `n` compared with 8000 in 32-bit words: no overflow below 63 tiles. -/
theorem validWord (n l : Nat) (hn : n < 63) (hl : l < 128) :
    IntOp.cmpi .slt (IntOp.addi (Scalar.muli (BitVec.ofNat 32 n) 128#32) (BitVec.ofNat 32 l)) 8000#32
      = if n * 128 + l < 8000 then 1#1 else 0#1 := by
  have e : IntOp.addi (Scalar.muli (BitVec.ofNat 32 n) 128#32) (BitVec.ofNat 32 l) = BitVec.ofNat 32 (n * 128 + l) := by
    show BitVec.ofNat 32 n * 128#32 + BitVec.ofNat 32 l = _
    rw [BitVec.ofNat_add, BitVec.ofNat_mul]
  rw [e]
  show BitVec.ofBool ((BitVec.ofNat 32 (n * 128 + l)).slt 8000#32) = _
  have hlt : n * 128 + l < 8192 := by omega
  have h1 : (BitVec.ofNat 32 (n * 128 + l)).toInt = ((n * 128 + l : Nat) : Int) := by
    rw [BitVec.toInt_eq_toNat_of_lt, BitVec.toNat_ofNat, Nat.mod_eq_of_lt (by omega)]
    rw [BitVec.toNat_ofNat, Nat.mod_eq_of_lt (by omega)]; omega
  have h2 : (8000#32 : BitVec 32).toInt = 8000 := by decide
  rw [BitVec.slt, h1, h2]
  by_cases h : n * 128 + l < 8000
  · rw [if_pos h, decide_eq_true (by omega)]; rfl
  · rw [if_neg h, decide_eq_false (by omega)]; rfl

/-! ## The blocks as loaded, the validity bit, the lane maximum and the clamped cutoff at an entry -/

/-- A block cast to its own shape is the block (both kernels' loads). -/
theorem pay5_eq (v : Vec Ideal S4096x128 .f32) : k0_pay5 (F := Ideal) v = v := shapeCast_self v _
theorem pay3_eq (v : Vec Ideal S4096x128 .f32) : k1_pay3 (F := Ideal) v = v := shapeCast_self v _
theorem pay4_eq (v : Vec Ideal S4096x128 .f32) : k1_pay4 (F := Ideal) v = v := shapeCast_self v _
theorem pay5'_eq (v : Vec Ideal S4096x128 .f32) : k1_pay5 (F := Ideal) v = v := shapeCast_self v _
theorem pay6_eq (v : Vec Ideal S4096x128 .f32) : k1_pay6 (F := Ideal) v = v := shapeCast_self v _

/-- The validity bit at row `r`, lane `l` of tile `i`: first region … -/
theorem valid_apply (i : grid0.Coords) (hi : (i 0).val < 63) (r : Fin 4096) (l : Fin 128) :
    k0_pay6 i (ix2 r l) = if (i 0).val * 128 + l.val < 8000 then 1#1 else 0#1 := by
  unfold k0_pay6
  show IntOp.cmpi .slt (IntOp.addi (Scalar.muli (BitVec.ofNat 32 (i 0).val) 128#32)
    (iota .tc S4096x128 32 [1] iota_S4096x128_d1_w32 (ix2 r l))) 8000#32 = _
  rw [iota_single_apply]
  exact validWord (i 0).val l.val hi l.isLt

/-- … and second region. -/
theorem valid1_apply (i : grid1.Coords) (hi : (i 0).val < 63) (r : Fin 4096) (l : Fin 128) :
    k1_pay7 i (ix2 r l) = if (i 0).val * 128 + l.val < 8000 then 1#1 else 0#1 := by
  unfold k1_pay7
  show IntOp.cmpi .slt (IntOp.addi (Scalar.muli (BitVec.ofNat 32 (i 0).val) 128#32)
    (iota .tc S4096x128 32 [1] iota_S4096x128_d1_w32 (ix2 r l))) 8000#32 = _
  rw [iota_single_apply]
  exact validWord (i 0).val l.val hi l.isLt

/-- The source index over lane `l` with row `r` inserted. -/
theorem lift_col (l : Fin 128) (r : Fin 4096) : reduces_S4096x128_S128.lift (ix1 l) r = ix2 r l := by
  funext c
  refine Fin.ext ?_
  match c with
  | ⟨0, _⟩ => rfl
  | ⟨1, _⟩ => rfl

/-- A minimum over one axis is the fold of `min` from the accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A block's column maximum at lane `l`. -/
theorem colMax_apply (x0 : Vec Ideal S4096x128 .f32) (l : Fin 128) :
    multiReduction (F := Ideal) .maximumf [0] S128 x0 0xFF800000#32 reduces_S4096x128_S128 (.inl rfl) rfl (ix1 l)
      = laneMax x0 l := by
  refine (Ideal.multiReduction_maximumf_single x0 _ reduces_S4096x128_S128 _ _ (ix1 l)).trans ?_
  show Finset.univ.fold max (Ideal.ofBits .f32 0xFF800000#32) _ = _
  rw [ofBits_negInf]
  exact congrArg (fun f => Finset.univ.fold max ⊥ f) (funext fun r' => congrArg x0 (lift_col l r'))

/-- A block's column minimum at lane `l`. -/
theorem colMin_apply (v : Vec Ideal S4096x128 .f32) (l : Fin 128) :
    multiReduction (F := Ideal) .minimumf [0] S128 v 0x7F800000#32 reduces_S4096x128_S128 (.inl rfl) rfl (ix1 l)
      = Cert.Spec.colMin fun r' : Fin 4096 => v (ix2 r' l) := by
  refine (multiReduction_minimumf_single v _ reduces_S4096x128_S128 _ _ (ix1 l)).trans ?_
  show Finset.univ.fold min (Ideal.ofBits .f32 0x7F800000#32) _ = _
  rw [ofBits_posInf]
  exact congrArg (fun f => Finset.univ.fold min ⊤ f) (funext fun r' => congrArg v (lift_col l r'))

/-- The clamped cutoff at an entry: first region … -/
theorem clip_apply (x0 x1 : Vec Ideal S4096x128 .f32) (r : Fin 4096) (l : Fin 128) :
    k0_pay7 (F := Ideal) x0 x1 (ix2 r l) = Cert.Spec.clip (laneMax x0 l) (x1 (ix2 r l)) := by
  unfold k0_pay7 k0_pay5
  dsimp only
  rw [minimumf_apply, maximumf_apply, broadcast_apply, broadcastTo_1b_ab_apply, shapeCast_a_1a_apply, shapeCast_self, shapeCast_self,
    colMax_apply, scalar_ofBits, Ideal.ofBits_zero_f32]
  unfold Cert.Spec.clip
  rfl

/-- … and second region. -/
theorem clip1_apply (x0 x1 : Vec Ideal S4096x128 .f32) (r : Fin 4096) (l : Fin 128) :
    k1_pay8 (F := Ideal) x0 x1 (ix2 r l) = Cert.Spec.clip (laneMax x0 l) (x1 (ix2 r l)) := by
  unfold k1_pay8 k1_pay3
  dsimp only
  rw [minimumf_apply, maximumf_apply, broadcast_apply, broadcastTo_1b_ab_apply, shapeCast_a_1a_apply, shapeCast_self, shapeCast_self,
    colMax_apply, scalar_ofBits, Ideal.ofBits_zero_f32]
  unfold Cert.Spec.clip
  rfl

/-- The 0/1 mask "response above its clamped cutoff" at an entry: first region … -/
theorem gtMask_apply (x0 x1 : Vec Ideal S4096x128 .f32) (r : Fin 4096) (l : Fin 128) :
    k0_pay8 (F := Ideal) x0 x1 (ix2 r l)
      = Cert.Spec.ind (Ideal.cmp .ogt (x0 (ix2 r l)) (Cert.Spec.clip (laneMax x0 l) (x1 (ix2 r l)))) := by
  unfold k0_pay8
  rw [sitofp_apply, extui_apply, cmpf_apply, clip_apply, pay5_eq, mask_eq, Ideal.cmpf_def]

/-- … and second region: the comparison's bit and its 0/1 mask. -/
theorem gtBit1_apply (x0 x1 : Vec Ideal S4096x128 .f32) (r : Fin 4096) (l : Fin 128) :
    k1_pay9 (F := Ideal) x0 x1 (ix2 r l) = Ideal.cmp .ogt (x0 (ix2 r l)) (Cert.Spec.clip (laneMax x0 l) (x1 (ix2 r l))) := by
  unfold k1_pay9
  rw [cmpf_apply, clip1_apply, pay3_eq, Ideal.cmpf_def]

theorem gtMask1_apply (x0 x1 : Vec Ideal S4096x128 .f32) (r : Fin 4096) (l : Fin 128) :
    k1_pay10 (F := Ideal) x0 x1 (ix2 r l)
      = Cert.Spec.ind (Ideal.cmp .ogt (x0 (ix2 r l)) (Cert.Spec.clip (laneMax x0 l) (x1 (ix2 r l)))) := by
  unfold k1_pay10
  rw [sitofp_apply, extui_apply, gtBit1_apply, mask_eq]

/-! ## The tile's greatest value through the entries' coordinates -/

/-- A fold of a commutative, associative operation over a finite type, re-indexed through a bijection. -/
theorem fold_univ_equiv {α β γ : Type} [Fintype α] [Fintype β] [DecidableEq β] (op : γ → γ → γ) [Std.Commutative op]
    [Std.Associative op] (b : γ) (e : α ≃ β) (f : β → γ) :
    Finset.univ.fold op b (fun a => f (e a)) = Finset.univ.fold op b f := by
  rw [← Finset.image_univ_equiv e, Finset.fold_image fun x _ y _ h => e.injective h]
  rfl

/-- A maximum into a shape of unit axes is the greatest value over the whole source. -/
theorem multiReduction_maximumf_total {φ : FTy} {s t : Shape} {axes : List (Fin s.rank)} (src : FVec Ideal s φ)
    (acc : BitVec φ.bits) (h : s.Reduces axes t) (ht : ∀ b, t.size b = 1) (hφ : FKind.Formats φ)
    (hacc : acc = FKind.maximumf.neutral φ hφ) (j : t.Idx) :
    multiReduction .maximumf axes t src acc h hφ hacc j = Finset.univ.fold max (Ideal.ofBits φ acc) src := by
  rw [multiReduction_maximumf_eq_fold]
  rw [Finset.filter_true_of_mem fun i _ => funext fun b => Fin.ext (by
    have := (h.drop i b).isLt; have := (j b).isLt; have := ht b; omega)]
  rfl

/-- The greatest value of a tile, over its (row, lane) pairs. -/
theorem tileMax_eq (v : Vec Ideal S4096x128 .f32) :
    extractAt ![0, 0, 0] (shapeCast S1x1x1 (multiReduction (F := Ideal) .maximumf [1, 2] S1
        (shapeCast S1x4096x128 v shapeCasts_S4096x128_S1x4096x128) 0xFF800000#32 reduces_S1x4096x128_S1 (.inl rfl) rfl)
        shapeCasts_S1_S1x1x1) inpos_S1x1x1_p0_0_0
      = Finset.univ.fold max ⊥ fun p : Fin 4096 × Fin 128 => v (ix2 p.1 p.2) := by
  unfold extractAt
  rw [shapeCast_apply _ _ _ (ix1 (0 : Fin 1)) (by decide)]
  refine (multiReduction_maximumf_total _ _ reduces_S1x4096x128_S1 (by decide) _ _ (ix1 0)).trans ?_
  unfold shapeCast
  rw [ofBits_negInf, fold_univ_equiv max ⊥ (Shape.reshapeEquiv _) v]
  exact (fold_univ_equiv max ⊥ idxEquiv2.symm v).symm

/-! ## The statements -/

/-- The stored zeros. -/
theorem zero_sum (y : S1x1.Idx) : k0_pay3 (F := Ideal) y = 0 := Ideal.ofBits_zero_f32
theorem zero_max (y : S1x1.Idx) : k0_pay4 (F := Ideal) y = 0 := Ideal.ofBits_zero_f32
theorem zero_slab (y : S1x1.Idx) : k1_pay2 (F := Ideal) y = 0 := Ideal.ofBits_zero_f32

/-- The sum's step: the carried value plus the tile's contribution. -/
theorem sumStep_eq (prev : Vec Ideal S1x1 .f32) (s : Ideal .f32) (y : S1x1.Idx) :
    k0_pay1 (F := Ideal) (k0_pay9 prev) s y = prev y + s := by
  unfold k0_pay1 k0_pay9
  simp only [shapeCast_self]
  rfl

/-- The tile's spike contribution. -/
theorem tileSpike_eq (i : grid0.Coords) (hi : (i 0).val < 63) (x0 x1 x2 : Vec Ideal S4096x128 .f32) :
    tileSpike (F := Ideal) i x0 x1 x2
      = ∑ l : Fin 128, ∑ r : Fin 4096,
          if (i 0).val * 128 + l.val < 8000 then
            Cert.Spec.spikeE (laneMax x0 l) (x0 (ix2 r l)) (x1 (ix2 r l)) (x2 (ix2 r l))
          else 0 := by
  show k0_pay10 (F := Ideal) i x0 x1 x2 = _
  unfold k0_pay10
  dsimp only
  refine (Cert.KernelIdeal.TileTotal.tileTotal _).trans ?_
  refine Finset.sum_congr rfl fun l _ => Finset.sum_congr rfl fun r _ => ?_
  rw [select_apply, valid_apply i hi, select_ite, mulf_apply, subf_apply, log_apply, log_apply, subf_apply, broadcast_apply,
    broadcast_apply, sitofp_apply, extui_apply, cmpf_apply, clip_apply, pay5_eq, shapeCast_self, mask_eq, scalar_ofBits,
    scalar_ofBits, Ideal.ofBits_zero_f32, Ideal.cmpf_def]
  unfold Cert.Spec.spikeE
  rfl

/-- The maximum's step: the carried value against the tile's greatest response above its cutoff. -/
theorem stepMax_eq (i : grid0.Coords) (hi : (i 0).val < 63) (x0 x1 : Vec Ideal S4096x128 .f32) (prev : Vec Ideal S1x1 .f32)
    (y : S1x1.Idx) :
    stepMax (F := Ideal) i x0 x1 prev y
      = max (prev y) (Finset.univ.fold max ⊥ fun p : Fin 4096 × Fin 128 =>
          if (i 0).val * 128 + p.2.val < 8000 then
            Cert.Spec.nzE (laneMax x0 p.2) (x0 (ix2 p.1 p.2)) (x1 (ix2 p.1 p.2))
          else 0) := by
  show k0_pay2 (F := Ideal) (k0_pay5 x0) (k0_pay6 i) (k0_pay8 x0 x1) prev y = _
  unfold k0_pay2
  dsimp only
  rw [maximumf_apply, broadcast_apply, shapeCast_self]
  refine congrArg (max (prev y)) ?_
  refine (tileMax_eq _).trans ?_
  refine congrArg (fun f => Finset.univ.fold max ⊥ f) (funext fun p => ?_)
  rw [select_apply, valid_apply i hi, select_ite, mulf_apply, pay5_eq, gtMask_apply, broadcast_apply, scalar_ofBits,
    Ideal.ofBits_zero_f32]
  unfold Cert.Spec.nzE
  rfl

end Cert.KernelIdeal.TileIdeal
end
-- ==== Proof.TileSlab.lean ====
/-
  The slab sum's step, read on the extended reals.

  The second kernel recomputes, per tile, the clamped cutoff and the "response above cutoff" mask, replaces the masked
  responses that vanish by the first kernel's global maximum, takes each lane's minimum of those — a neuron's least
  response above its cutoff —, clamps the cutoff a second time below 0.999 of that, and adds up the log-normal
  density's logarithm of `target - cutoff` over the entries above the cutoff, padding lanes masked out.  Written
  entry by entry this is the loss's slab term; the only part of the body that is not entrywise is the lane minimum.
-/
import proofs.«164940_j17970143167413_1_alg».proof.Proof.TileIdeal
import proofs.«164940_j17970143167413_1_alg».proof.Proof.TileTotal

set_option maxRecDepth 16384

noncomputable section
namespace Cert.KernelIdeal.TileIdeal

open Idealize.ShloMosaic Idealize.ShloMosaic.ValueIdx
open Cert.KernelIdeal Cert.KernelIdeal.Gen Cert.KernelIdeal.Pieces Cert.KernelIdeal.TileTotal

/-! ## The last payload over arbitrary vectors -/

/-- The upper bound of the second clamp at an entry: the column's least replaced response times 0.999. -/
theorem upper_apply (v37 : Vec Ideal S4096x128 .f32) (hφ : FKind.Formats .f32)
    (hacc : (0x7F800000#32 : BitVec 32) = FKind.minimumf.neutral .f32 hφ) (r : Fin 4096) (l : Fin 128) :
    broadcastTo S4096x128
        (mulf (shapeCast S1x128 (multiReduction (F := Ideal) .minimumf [0] S128 v37 0x7F800000#32 reduces_S4096x128_S128 hφ hacc)
            shapeCasts_S128_S1x128)
          (broadcast S1x128 (Ideal.ofBits .f32 0x3F7FBE77#32)))
        broadcasts_S1x128_S4096x128 (ix2 r l)
      = (Cert.Spec.colMin fun r' : Fin 4096 => v37 (ix2 r' l)) * Cert.Spec.c999 := by
  rw [broadcastTo_1b_ab_apply, mulf_apply, broadcast_apply, shapeCast_a_1a_apply]
  exact congrArg (· * Cert.Spec.c999) (colMin_apply v37 l)

/-- One entry's masked slab term as a formula in scalars: `u` the upper bound of the second clamp, `t4 t8 t10 t12` the entry's
    target, slab probability, log-mean and variance, `t26` its clamped cutoff, `b27` the "above the cutoff" bit and `t29`
    its 0/1 value. -/
def entryS (u t4 t8 t10 t12 t26 t29 : EReal) (b27 : BitVec 1) : EReal :=
  (Ideal.log t8 - Cert.Spec.chalf * (Cert.Spec.cL2PI + Ideal.log t12)
    - Ideal.div
        ((Ideal.log (Scalar.select b27 (t4 - min u (max (Ideal.ofBits .f32 0x00000000#32) t26)) Cert.Spec.one) - t10)
          * (Ideal.log (Scalar.select b27 (t4 - min u (max (Ideal.ofBits .f32 0x00000000#32) t26)) Cert.Spec.one) - t10))
        (Cert.Spec.ctwo * t12)
    + (Ideal.ofBits .f32 0x00000000#32
        - Ideal.log (Scalar.select b27 (t4 - min u (max (Ideal.ofBits .f32 0x00000000#32) t26)) Cert.Spec.one))) * t29

/-- The same at entry (r, l) of the vectors, the upper bound being 0.999 times the lane's least `v37`. -/
def entryV (v4 v8 v10 v12 v26 v29 v37 : Vec Ideal S4096x128 .f32) (v27 : IVec S4096x128 1) (r : Fin 4096) (l : Fin 128) : EReal :=
  entryS ((Cert.Spec.colMin fun r' : Fin 4096 => v37 (ix2 r' l)) * Cert.Spec.c999) (v4 (ix2 r l)) (v8 (ix2 r l)) (v10 (ix2 r l))
    (v12 (ix2 r l)) (v26 (ix2 r l)) (v29 (ix2 r l)) (v27 (ix2 r l))

theorem slabPay_eq (v4 v8 v10 v12 : Vec Ideal S4096x128 .f32) (v20 : IVec S4096x128 1) (v26 : Vec Ideal S4096x128 .f32)
    (v27 : IVec S4096x128 1) (v29 v37 : Vec Ideal S4096x128 .f32) (v69 : Vec Ideal S1x1 .f32) (y : S1x1.Idx) :
    k1_pay1 (F := Ideal) v4 v8 v10 v12 v20 v26 v27 v29 v37 v69 y
      = v69 y + ∑ l : Fin 128, ∑ r : Fin 4096,
          Scalar.select (v20 (ix2 r l)) (entryV v4 v8 v10 v12 v26 v29 v37 v27 r l) (Ideal.ofBits .f32 0x00000000#32) := by
  unfold k1_pay1
  dsimp only
  rw [addf_apply, broadcast_apply, shapeCast_self]
  refine congrArg (v69 y + ·) ((tileTotal _).trans ?_)
  refine Finset.sum_congr rfl fun l _ => Finset.sum_congr rfl fun r _ => ?_
  simp only [select_apply, mulf_apply, addf_apply, subf_apply, divf_apply, broadcast_apply, log_apply, scalar_ofBits]
  rw [minimumf_apply, maximumf_apply]
  simp only [broadcast_apply, scalar_ofBits]
  exact congrArg (fun u : EReal => Scalar.select (v20 (ix2 r l))
      (entryS u (v4 (ix2 r l)) (v8 (ix2 r l)) (v10 (ix2 r l)) (v12 (ix2 r l)) (v26 (ix2 r l)) (v29 (ix2 r l)) (v27 (ix2 r l)))
      (Ideal.ofBits .f32 0x00000000#32)) (upper_apply v37 _ _ r l)

/-! ## The second kernel's intermediate vectors at an entry -/

/-- The masked response with its zeros replaced by the global maximum. -/
theorem replaced1 (i : grid1.Coords) (hi : (i 0).val < 63) (x0 x1 : Vec Ideal S4096x128 .f32) (x5 : Vec Ideal S1x1 .f32)
    (r : Fin 4096) (l : Fin 128) :
    k1_pay11 (F := Ideal) i x0 x1 x5 (ix2 r l)
      = Cert.Spec.repE (x5 (ix2 0 0))
          (if (i 0).val * 128 + l.val < 8000 then Cert.Spec.nzE (laneMax x0 l) (x0 (ix2 r l)) (x1 (ix2 r l)) else 0) := by
  have hv : Scalar.select (k1_pay7 i (ix2 r l)) (k1_pay3 (F := Ideal) x0 (ix2 r l) * k1_pay10 (F := Ideal) x0 x1 (ix2 r l))
        (Scalar.ofBits (F := Ideal) .f32 0x00000000#32)
      = if (i 0).val * 128 + l.val < 8000 then Cert.Spec.nzE (laneMax x0 l) (x0 (ix2 r l)) (x1 (ix2 r l)) else 0 := by
    rw [valid1_apply i hi r l, select_ite, pay3_eq, gtMask1_apply, scalar_ofBits, Ideal.ofBits_zero_f32]
    rfl
  have hg : broadcastTo S4096x128 (shapeCast S1x1 (shapeCast S1x1 x5 shapeCasts_S1x1_S1x1) shapeCasts_S1x1_S1x1)
      broadcasts_S1x1_S4096x128 (ix2 r l) = x5 (ix2 0 0) := by
    rw [shapeCast_self, shapeCast_self]
    exact broadcastTo_apply _ _ _ (ix2 0 0) (fun a => by
      match a with
      | ⟨0, _⟩ => rfl
      | ⟨1, _⟩ => rfl)
  show Scalar.select (FloatOps.cmpf .oeq
      (Scalar.select (k1_pay7 i (ix2 r l)) (k1_pay3 (F := Ideal) x0 (ix2 r l) * k1_pay10 (F := Ideal) x0 x1 (ix2 r l))
        (Scalar.ofBits (F := Ideal) .f32 0x00000000#32))
      (Scalar.ofBits (F := Ideal) .f32 0x00000000#32))
    (broadcastTo S4096x128 (shapeCast S1x1 (shapeCast S1x1 x5 shapeCasts_S1x1_S1x1) shapeCasts_S1x1_S1x1)
      broadcasts_S1x1_S4096x128 (ix2 r l))
    (Scalar.select (k1_pay7 i (ix2 r l)) (k1_pay3 (F := Ideal) x0 (ix2 r l) * k1_pay10 (F := Ideal) x0 x1 (ix2 r l))
      (Scalar.ofBits (F := Ideal) .f32 0x00000000#32)) = _
  rw [hv, hg, scalar_ofBits, Ideal.ofBits_zero_f32]
  rfl

/-! ## The step -/

/-- The slab sum's step: `x5` is the first region's maximum, read at the one entry of its block. -/
theorem stepSlab_eq (i : grid1.Coords) (hi : (i 0).val < 63) (x0 x1 x2 x3 x4 : Vec Ideal S4096x128 .f32)
    (x5 prev : Vec Ideal S1x1 .f32) (y : S1x1.Idx) :
    stepSlab (F := Ideal) i x0 x1 x2 x3 x4 x5 prev y
      = prev y + ∑ l : Fin 128, ∑ r : Fin 4096,
          if (i 0).val * 128 + l.val < 8000 then
            Cert.Spec.slabE (laneMax x0 l)
              (Cert.Spec.colMin fun r' : Fin 4096 => Cert.Spec.repE (x5 (ix2 0 0))
                (if (i 0).val * 128 + l.val < 8000 then Cert.Spec.nzE (laneMax x0 l) (x0 (ix2 r' l)) (x1 (ix2 r' l)) else 0))
              (x0 (ix2 r l)) (x1 (ix2 r l)) (x2 (ix2 r l)) (x3 (ix2 r l)) (x4 (ix2 r l))
          else 0 := by
  rw [show stepSlab (F := Ideal) i x0 x1 x2 x3 x4 x5 prev y
      = k1_pay1 (F := Ideal) (k1_pay3 x0) (k1_pay4 x2) (k1_pay5 x3) (k1_pay6 x4) (k1_pay7 i) (k1_pay8 x0 x1) (k1_pay9 x0 x1)
          (k1_pay10 x0 x1) (k1_pay11 i x0 x1 x5) prev y from rfl, slabPay_eq, pay3_eq, pay4_eq, pay5'_eq, pay6_eq]
  refine congrArg (prev y + ·) (Finset.sum_congr rfl fun l _ => Finset.sum_congr rfl fun r _ => ?_)
  rw [valid1_apply i hi r l, select_ite, Ideal.ofBits_zero_f32]
  by_cases hv : (i 0).val * 128 + l.val < 8000
  · rw [if_pos hv, if_pos hv]
    unfold entryV entryS
    rw [gtMask1_apply, gtBit1_apply, clip1_apply, funext fun r' => replaced1 i hi x0 x1 x5 r' l, Ideal.ofBits_zero_f32, zero_sub]
    rfl
  · rw [if_neg hv, if_neg hv]

end Cert.KernelIdeal.TileIdeal
end
-- ==== Proof.Regroup.lean ====
/-
  From tiles back to neurons.

  The padded neuron axis has 63 · 128 = 8064 positions, position `128·t + l` being lane `l` of tile `t`; the first
  8000 are the neurons.  A sum over tiles and lanes of a quantity that vanishes at the padding is the sum over the
  neurons, since addition of extended reals is commutative and associative (no finiteness is needed).  For the
  maximum: a response above its clamped cutoff is positive — the cutoff is clamped into `[0, column maximum]` and
  the response is at most its column's maximum, so exceeding the clamped cutoff means exceeding a nonnegative number —
  hence every masked response is ≥ 0, and a running maximum started from 0 over all tiles is the maximum over the
  whole array.
-/
import proofs.«164940_j17970143167413_1_alg».proof.Proof.Spec
import Mathlib.Algebra.BigOperators.Fin
import Mathlib.Algebra.Order.BigOperators.Group.Finset
import Mathlib.Data.Finset.Fold

noncomputable section
namespace Cert.Regroup

open Cert.Spec Idealize.ShloMosaic

/-! ## Sums -/

/-- A sum over (tile, lane) of a function of the position that vanishes from 8000 on is the sum over the neurons. -/
theorem sum_tiles (G : ℕ → EReal) (hG : ∀ k, 8000 ≤ k → G k = 0) :
    ∑ t : Fin 63, ∑ l : Fin 128, G (t.val * 128 + l.val) = ∑ j : Fin 8000, G j.val := by
  have e1 : ∑ t : Fin 63, ∑ l : Fin 128, G (t.val * 128 + l.val) = ∑ k : Fin (63 * 128), G k.val := by
    rw [← Fintype.sum_prod_type', ← finProdFinEquiv.sum_comp]
    refine Finset.sum_congr rfl fun p _ => ?_
    show G (p.1.val * 128 + p.2.val) = G (finProdFinEquiv p).val
    rw [finProdFinEquiv_apply_val]
    congr 1; omega
  rw [e1, Fin.sum_univ_eq_sum_range (fun k => G k) (63 * 128), Fin.sum_univ_eq_sum_range (fun k => G k) 8000,
    ← Finset.sum_range_add_sum_Ico (fun k => G k) (show 8000 ≤ 63 * 128 by norm_num)]
  rw [Finset.sum_eq_zero (s := Finset.Ico 8000 (63 * 128)) fun k hk => hG k (Finset.mem_Ico.mp hk).1, add_zero]

/-! ## The masked response is nonnegative -/

theorem ind_nonneg (b : BitVec 1) : 0 ≤ ind b := by unfold ind; split <;> norm_num

theorem ind_cmp_ogt (x y : EReal) : ind (Ideal.cmp .ogt x y) = if y < x then 1 else 0 := by
  unfold ind Ideal.cmp
  by_cases h : y < x <;> simp [h]

/-- A response at most its column's maximum, where it exceeds the clamped cutoff, is positive; elsewhere the masked
    response is 0. -/
theorem nzE_nonneg (cm t l : EReal) (ht : t ≤ cm) : 0 ≤ nzE cm t l := by
  unfold nzE
  rw [ind_cmp_ogt]
  by_cases h : clip cm l < t
  · rw [if_pos h, mul_one]
    unfold clip at h
    rcases min_lt_iff.mp h with h1 | h2
    · exact absurd (lt_of_lt_of_le h1 ht) (lt_irrefl _)
    · exact le_of_lt (lt_of_le_of_lt (le_max_left 0 l) h2)
  · rw [if_neg h, mul_zero]

theorem le_colMax {n : Nat} (f : Fin n → EReal) (i : Fin n) : f i ≤ colMax f := by
  unfold colMax
  exact (Finset.le_fold_max _).mpr (Or.inr ⟨i, Finset.mem_univ _, le_rfl⟩)

/-! ## Maxima -/

/-- The running maximum over tiles `0 … n`, started from 0. -/
def runMax (TM : ℕ → EReal) : ℕ → EReal
  | 0 => max 0 (TM 0)
  | n + 1 => max (runMax TM n) (TM (n + 1))

theorem runMax_eq (TM : ℕ → EReal) (n : ℕ) : runMax TM n = (Finset.range (n + 1)).fold max 0 TM := by
  induction n with
  | zero => simp [runMax, Finset.range_one, Finset.fold_singleton, max_comm]
  | succ n ih =>
    rw [runMax, ih, Finset.range_add_one (n := n + 1), Finset.fold_insert (by simp), max_comm]

/-- A nonnegative quantity of (trial, position) that vanishes from position 8000 on: the running maximum from 0 over
    the 63 tiles of the tiles' maxima is the maximum over all trials and neurons. -/
theorem max_tiles (NZ : Fin 4096 → ℕ → EReal) (hnn : ∀ r k, 0 ≤ NZ r k) (hz : ∀ r k, 8000 ≤ k → NZ r k = 0) :
    (Finset.range 63).fold max 0 (fun t => Finset.univ.fold max ⊥ fun p : Fin 4096 × Fin 128 => NZ p.1 (t * 128 + p.2.val))
      = Finset.univ.fold max ⊥ fun p : Fin 4096 × Fin 8000 => NZ p.1 p.2.val := by
  have h0 : (0 : EReal) ≤ Finset.univ.fold max ⊥ fun p : Fin 4096 × Fin 8000 => NZ p.1 p.2.val :=
    (Finset.le_fold_max _).mpr (Or.inr ⟨(⟨0, by norm_num⟩, ⟨0, by norm_num⟩), by simp, hnn _ _⟩)
  apply le_antisymm
  · refine (Finset.fold_max_le _).mpr ⟨h0, fun t ht => (Finset.fold_max_le _).mpr ⟨bot_le, fun p _ => ?_⟩⟩
    by_cases hk : t * 128 + p.2.val < 8000
    · exact (Finset.le_fold_max _).mpr (Or.inr ⟨(p.1, ⟨t * 128 + p.2.val, hk⟩), by simp, le_rfl⟩)
    · rw [hz _ _ (not_lt.mp hk)]; exact h0
  · refine (Finset.fold_max_le _).mpr ⟨bot_le, fun p _ => ?_⟩
    have hj : p.2.val < 8000 := p.2.isLt
    refine (Finset.le_fold_max _).mpr (Or.inr ⟨p.2.val / 128, Finset.mem_range.mpr (by omega), ?_⟩)
    refine (Finset.le_fold_max _).mpr (Or.inr ⟨(p.1, ⟨p.2.val % 128, Nat.mod_lt _ (by norm_num)⟩), by simp, ?_⟩)
    show NZ p.1 p.2.val ≤ NZ p.1 (p.2.val / 128 * 128 + p.2.val % 128)
    rw [Nat.div_add_mod' p.2.val 128]

end Cert.Regroup
end
-- ==== Proof.Closed.lean ====
/-
  The accumulators in closed form, on the extended reals.

  Each step adds the tile's contribution to (or takes the maximum of it with) the carried value, and the first step
  starts from the stored zero; so after tile `n` the sum blocks hold the sum of the contributions of tiles `0 … n`
  and the maximum block holds their running maximum from 0.
-/
import proofs.«164940_j17970143167413_1_alg».proof.Proof.Arrays
import proofs.«164940_j17970143167413_1_alg».proof.Proof.Blocks
import proofs.«164940_j17970143167413_1_alg».proof.Proof.TileIdeal
import proofs.«164940_j17970143167413_1_alg».proof.Proof.TileSlab
import proofs.«164940_j17970143167413_1_alg».proof.Proof.Regroup

set_option maxRecDepth 16384

noncomputable section
namespace Cert.KernelIdeal.Closed

open Idealize.ShloMosaic Idealize.ShloMosaic.TcCoe Idealize.SL.Sem Idealize.ShloMosaic.ValueIdx
open Cert.KernelIdeal Cert.KernelIdeal.Gen Cert.KernelIdeal.Pieces Cert.KernelIdeal.Acc Cert.KernelIdeal.Arrays
open Cert.KernelIdeal.TileIdeal

variable (V : (c : Dev nD) → (b : Ref sig .tc) → Buf (Elt Ideal) ((c : Thread nD τ).loc b)) (c : Dev nD)

theorem hi0 (t : Fin cfg0.N) : ((grid0.coords t) 0).val < 63 := by
  rw [Blocks.coord0 t]; have := t.isLt; have hN : cfg0.N = 63 := N_0; omega
theorem hi1 (t : Fin cfg1.N) : ((grid1.coords t) 0).val < 63 := by
  rw [Blocks.coord1 t]; have := t.isLt; have hN : cfg1.N = 63 := N_1; omega

/-! ## First region -/

/-- Tile `s`'s spike contribution (0 beyond the grid). -/
def tileSum (s : ℕ) : EReal :=
  if h : s < cfg0.N then tileSpike (F := Ideal) (grid0.coords ⟨s, h⟩) (iblk0 V c 0 ⟨s, h⟩) (iblk0 V c 1 ⟨s, h⟩) (iblk0 V c 2 ⟨s, h⟩) else 0

/-- Tile `s`'s greatest masked response (0 beyond the grid). -/
def tileMax (s : ℕ) : EReal :=
  if h : s < cfg0.N then
    Finset.univ.fold max ⊥ fun p : Fin 4096 × Fin 128 =>
      if ((grid0.coords ⟨s, h⟩) 0).val * 128 + p.2.val < 8000 then
        Cert.Spec.nzE (laneMax (iblk0 V c 0 ⟨s, h⟩) p.2) ((iblk0 V c 0 ⟨s, h⟩ : Vec Ideal S4096x128 .f32) (ix2 p.1 p.2))
          ((iblk0 V c 1 ⟨s, h⟩ : Vec Ideal S4096x128 .f32) (ix2 p.1 p.2))
      else 0
  else 0

theorem run0_closed : ∀ (n : ℕ) (h : n < cfg0.N) (y : S1x1.Idx),
    ((run0 V c n h).1 : Vec Ideal S1x1 .f32) y = ∑ s ∈ Finset.range (n + 1), tileSum V c s
    ∧ ((run0 V c n h).2 : Vec Ideal S1x1 .f32) y = Cert.Regroup.runMax (tileMax V c) n
  | 0, h, y => by
    constructor
    · show k0_pay1 (F := Ideal) (k0_pay9 (F := Ideal) (k0_pay3 (F := Ideal))) _ y = _
      rw [sumStep_eq, zero_sum, zero_add, Finset.sum_range_one, tileSum, dif_pos h]
    · show stepMax (F := Ideal) _ _ _ (k0_pay4 (F := Ideal)) y = _
      rw [stepMax_eq _ (hi0 ⟨0, h⟩), zero_max, Cert.Regroup.runMax, tileMax, dif_pos h]
  | n + 1, h, y => by
    obtain ⟨ih1, ih2⟩ := run0_closed n (Nat.lt_of_succ_lt h) y
    constructor
    · show k0_pay1 (F := Ideal) (k0_pay9 (F := Ideal) (run0 V c n _).1) _ y = _
      rw [sumStep_eq, ih1, Finset.sum_range_succ _ (n + 1), tileSum, dif_pos h]
    · show stepMax (F := Ideal) _ _ _ (run0 V c n _).2 y = _
      rw [stepMax_eq _ (hi0 ⟨n + 1, h⟩), ih2, Cert.Regroup.runMax, tileMax, dif_pos h]

/-- The spike array's entry: the sum of the 63 tiles' contributions. -/
theorem spike_total (y : S1x1.Idx) : (spikeRes V c : S1x1.Idx → EReal) y = ∑ s ∈ Finset.range 63, tileSum V c s :=
  (run0_closed V c 62 last0.isLt y).1

/-- The maximum array's entry: the running maximum from 0 of the 63 tiles' maxima. -/
theorem max_total (y : S1x1.Idx) : (maxRes V c : S1x1.Idx → EReal) y = (Finset.range 63).fold max 0 (tileMax V c) :=
  ((run0_closed V c 62 last0.isLt y).2).trans (Cert.Regroup.runMax_eq _ 62)

/-! ## Second region -/

/-- Tile `s`'s slab contribution (0 beyond the grid). -/
def tileSlab (s : ℕ) : EReal :=
  if h : s < cfg1.N then
    ∑ l : Fin 128, ∑ r : Fin 4096,
      if ((grid1.coords ⟨s, h⟩) 0).val * 128 + l.val < 8000 then
        Cert.Spec.slabE (laneMax (iblk1 V c 0 ⟨s, h⟩) l)
          (Cert.Spec.colMin fun r' : Fin 4096 => Cert.Spec.repE ((iblk1 V c 5 ⟨s, h⟩ : Vec Ideal S1x1 .f32) (ix2 0 0))
            (if ((grid1.coords ⟨s, h⟩) 0).val * 128 + l.val < 8000 then
              Cert.Spec.nzE (laneMax (iblk1 V c 0 ⟨s, h⟩) l) ((iblk1 V c 0 ⟨s, h⟩ : Vec Ideal S4096x128 .f32) (ix2 r' l))
                ((iblk1 V c 1 ⟨s, h⟩ : Vec Ideal S4096x128 .f32) (ix2 r' l))
            else 0))
          ((iblk1 V c 0 ⟨s, h⟩ : Vec Ideal S4096x128 .f32) (ix2 r l)) ((iblk1 V c 1 ⟨s, h⟩ : Vec Ideal S4096x128 .f32) (ix2 r l))
          ((iblk1 V c 2 ⟨s, h⟩ : Vec Ideal S4096x128 .f32) (ix2 r l)) ((iblk1 V c 3 ⟨s, h⟩ : Vec Ideal S4096x128 .f32) (ix2 r l))
          ((iblk1 V c 4 ⟨s, h⟩ : Vec Ideal S4096x128 .f32) (ix2 r l))
      else 0
  else 0

theorem run1_closed : ∀ (n : ℕ) (h : n < cfg1.N) (y : S1x1.Idx),
    (run1 V c n h : Vec Ideal S1x1 .f32) y = ∑ s ∈ Finset.range (n + 1), tileSlab V c s
  | 0, h, y => by
    show stepSlab (F := Ideal) _ _ _ _ _ _ _ (k1_pay2 (F := Ideal)) y = _
    rw [stepSlab_eq _ (hi1 ⟨0, h⟩), zero_slab, zero_add, Finset.sum_range_one, tileSlab, dif_pos h]
  | n + 1, h, y => by
    show stepSlab (F := Ideal) _ _ _ _ _ _ _ (run1 V c n _) y = _
    rw [stepSlab_eq _ (hi1 ⟨n + 1, h⟩), run1_closed n (Nat.lt_of_succ_lt h) y, Finset.sum_range_succ _ (n + 1), tileSlab, dif_pos h]

/-- The slab array's entry: the sum of the 63 tiles' contributions. -/
theorem slab_total (y : S1x1.Idx) : (slabRes V c : S1x1.Idx → EReal) y = ∑ s ∈ Finset.range 63, tileSlab V c s :=
  run1_closed V c 62 last1.isLt y

end Cert.KernelIdeal.Closed
end
-- ==== Proof.HostSide.lean ====
/-
  The host operations around the two regions.

  Before the first region the program pads each of the five argument arrays on the right of its neuron axis from
  8000 to 8064 columns — the target with 0, the cutoff with 1, the slab probability with 0.5, the log-mean with 0
  and the variance with 1 — and nothing afterwards writes those padded arrays.  After the second region it takes the
  one entry of each partial sum, adds the two and negates.
-/
import proofs.«164940_j17970143167413_1_alg».proof.Proof.Gen.KernelIdeal.Frame
import Idealize.ShloMosaic.Lib.StableHlo.Run
import Idealize.ShloMosaic.Lib.Tactic

set_option maxRecDepth 16384

noncomputable section
namespace Cert.KernelIdeal.HostSide

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- A stretch of host operations leaves a buffer none of them writes as it was. -/
macro "unwritten " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.reshape_writes, Finset.mem_singleton]
      repeat' apply And.intro
      all_goals exact StableHlo.devRef_ne_of_ne (by decide))))

/-! ## The padded arrays at the first region's entry -/

/-- The target padded to 8064 neurons, as the first region finds it. -/
theorem W10_v0 (c : Dev nD) : W10 m ρ c (Proc.devRef .tc main_v0)
    = pad S4096x8064 ![0, 0] ![0, 64] ![0, 0] (m ((c : Thread nD τ).loc main_arg0)) (constant S_ .f32 0x00000000#32) pads_S4096x8000_S4096x8064_000_0640 h_S_ := by
  rw [show W10 m ρ c (Proc.devRef .tc main_v0) = W9 m ρ c (Proc.devRef .tc main_v0) from by unwritten hostOps0_9]
  rw [show W9 m ρ c (Proc.devRef .tc main_v0) = W8 m ρ c (Proc.devRef .tc main_v0) from by unwritten hostOps0_8]
  rw [show W8 m ρ c (Proc.devRef .tc main_v0) = W7 m ρ c (Proc.devRef .tc main_v0) from by unwritten hostOps0_7]
  rw [show W7 m ρ c (Proc.devRef .tc main_v0) = W6 m ρ c (Proc.devRef .tc main_v0) from by unwritten hostOps0_6]
  rw [show W6 m ρ c (Proc.devRef .tc main_v0) = W5 m ρ c (Proc.devRef .tc main_v0) from by unwritten hostOps0_5]
  rw [show W5 m ρ c (Proc.devRef .tc main_v0) = W4 m ρ c (Proc.devRef .tc main_v0) from by unwritten hostOps0_4]
  rw [show W4 m ρ c (Proc.devRef .tc main_v0) = W3 m ρ c (Proc.devRef .tc main_v0) from by unwritten hostOps0_3]
  rw [show W3 m ρ c (Proc.devRef .tc main_v0) = W2 m ρ c (Proc.devRef .tc main_v0) from by unwritten hostOps0_2]
  show StableHlo.after hostOps0_1 (W1 m ρ c) (Proc.devRef .tc main_v0) = _
  after_results
  rfl

/-- The cutoff padded to 8064 neurons, as the first region finds it. -/
theorem W10_v1 (c : Dev nD) : W10 m ρ c (Proc.devRef .tc main_v1)
    = pad S4096x8064 ![0, 0] ![0, 64] ![0, 0] (m ((c : Thread nD τ).loc main_arg3)) (constant S_ .f32 0x3F800000#32) pads_S4096x8000_S4096x8064_000_0640 h_S_ := by
  rw [show W10 m ρ c (Proc.devRef .tc main_v1) = W9 m ρ c (Proc.devRef .tc main_v1) from by unwritten hostOps0_9]
  rw [show W9 m ρ c (Proc.devRef .tc main_v1) = W8 m ρ c (Proc.devRef .tc main_v1) from by unwritten hostOps0_8]
  rw [show W8 m ρ c (Proc.devRef .tc main_v1) = W7 m ρ c (Proc.devRef .tc main_v1) from by unwritten hostOps0_7]
  rw [show W7 m ρ c (Proc.devRef .tc main_v1) = W6 m ρ c (Proc.devRef .tc main_v1) from by unwritten hostOps0_6]
  rw [show W6 m ρ c (Proc.devRef .tc main_v1) = W5 m ρ c (Proc.devRef .tc main_v1) from by unwritten hostOps0_5]
  rw [show W5 m ρ c (Proc.devRef .tc main_v1) = W4 m ρ c (Proc.devRef .tc main_v1) from by unwritten hostOps0_4]
  show StableHlo.after hostOps0_3 (W3 m ρ c) (Proc.devRef .tc main_v1) = _
  after_results
  rfl

/-- The slab probability padded to 8064 neurons, as the first region finds it. -/
theorem W10_v2 (c : Dev nD) : W10 m ρ c (Proc.devRef .tc main_v2)
    = pad S4096x8064 ![0, 0] ![0, 64] ![0, 0] (m ((c : Thread nD τ).loc main_arg4)) (constant S_ .f32 0x3F000000#32) pads_S4096x8000_S4096x8064_000_0640 h_S_ := by
  rw [show W10 m ρ c (Proc.devRef .tc main_v2) = W9 m ρ c (Proc.devRef .tc main_v2) from by unwritten hostOps0_9]
  rw [show W9 m ρ c (Proc.devRef .tc main_v2) = W8 m ρ c (Proc.devRef .tc main_v2) from by unwritten hostOps0_8]
  rw [show W8 m ρ c (Proc.devRef .tc main_v2) = W7 m ρ c (Proc.devRef .tc main_v2) from by unwritten hostOps0_7]
  rw [show W7 m ρ c (Proc.devRef .tc main_v2) = W6 m ρ c (Proc.devRef .tc main_v2) from by unwritten hostOps0_6]
  show StableHlo.after hostOps0_5 (W5 m ρ c) (Proc.devRef .tc main_v2) = _
  after_results
  rfl

/-- The log-mean padded to 8064 neurons, as the first region finds it. -/
theorem W10_v3 (c : Dev nD) : W10 m ρ c (Proc.devRef .tc main_v3)
    = pad S4096x8064 ![0, 0] ![0, 64] ![0, 0] (m ((c : Thread nD τ).loc main_arg1)) (constant S_ .f32 0x00000000#32) pads_S4096x8000_S4096x8064_000_0640 h_S_ := by
  rw [show W10 m ρ c (Proc.devRef .tc main_v3) = W9 m ρ c (Proc.devRef .tc main_v3) from by unwritten hostOps0_9]
  rw [show W9 m ρ c (Proc.devRef .tc main_v3) = W8 m ρ c (Proc.devRef .tc main_v3) from by unwritten hostOps0_8]
  show StableHlo.after hostOps0_7 (W7 m ρ c) (Proc.devRef .tc main_v3) = _
  after_results
  rfl

/-- The variance padded to 8064 neurons, as the first region finds it. -/
theorem W10_v4 (c : Dev nD) : W10 m ρ c (Proc.devRef .tc main_v4)
    = pad S4096x8064 ![0, 0] ![0, 64] ![0, 0] (m ((c : Thread nD τ).loc main_arg2)) (constant S_ .f32 0x3F800000#32) pads_S4096x8000_S4096x8064_000_0640 h_S_ := by

  show StableHlo.after hostOps0_9 (W9 m ρ c) (Proc.devRef .tc main_v4) = _
  after_results
  rfl

/-! ## The result, from what the two regions leave -/

/-- The result buffer after the last stretch: minus the sum of the spike array's and the slab array's one entry. -/
theorem W13_result (c : Dev nD) : W13 m ρ c (Proc.devRef .tc main_v10)
    = Host.negf (addf (shapeCast S_ (W12 m ρ c (Proc.devRef .tc main_v5_0)) shapeCasts_S1x1_S_)
        (shapeCast S_ (W12 m ρ c (Proc.devRef .tc main_v6)) shapeCasts_S1x1_S_)) := by
  show StableHlo.after hostOps2 (W12 m ρ c) (Proc.devRef .tc main_v10) = _
  after_results
  rfl

end Cert.KernelIdeal.HostSide
end
-- ==== Proof.Boundaries.lean ====
/-
  The buffers at the two regions' boundaries.

  The first region leaves its three padded inputs as it found them and its two one-element results at the running
  values after the last tile; the log-mean and variance arrays, which it does not touch, pass through.  The second
  region reads all five padded arrays and the first region's maximum, and leaves the slab sum; the spike sum passes
  through it.
-/
import proofs.«164940_j17970143167413_1_alg».proof.Proof.Arrays
import proofs.«164940_j17970143167413_1_alg».proof.Proof.HostSide

set_option maxRecDepth 16384

noncomputable section
namespace Cert.KernelIdeal.Boundaries

open Idealize.ShloMosaic Idealize.ShloMosaic.TcCoe Idealize.SL.Sem
open Idealize.ShloMosaic.Pipeline (Dat)
open Cert.KernelIdeal Cert.KernelIdeal.Gen Cert.KernelIdeal.Arrays

variable {F : FTy → Type} [FloatOps F]
variable (m : (ℓ : Loc nD τ sig) → Buf (Elt F) ℓ) (ρ : Dev nD → PrngReg)

/-! ## After the first region -/

theorem W11_spike (c : Dev nD) : W11 m ρ c (Proc.devRef .tc main_v5_0) = spikeRes (V10 m ρ) c :=
  (W11_arr m ρ c 3).trans (spikeRes_array (V10 m ρ) c)

theorem W11_max (c : Dev nD) : W11 m ρ c (Proc.devRef .tc main_v5_1) = maxRes (V10 m ρ) c :=
  (W11_arr m ρ c 4).trans (maxRes_array (V10 m ρ) c)

theorem W11_v0 (c : Dev nD) : W11 m ρ c (Proc.devRef .tc main_v0) = W10 m ρ c (Proc.devRef .tc main_v0) :=
  (W11_arr m ρ c 0).trans (((dat0 (V10 m ρ) c).arrAt_in 0 rfl _).trans (A_eq0 (V10 m ρ) c 0))

theorem W11_v1 (c : Dev nD) : W11 m ρ c (Proc.devRef .tc main_v1) = W10 m ρ c (Proc.devRef .tc main_v1) :=
  (W11_arr m ρ c 1).trans (((dat0 (V10 m ρ) c).arrAt_in 1 rfl _).trans (A_eq0 (V10 m ρ) c 1))

theorem W11_v2 (c : Dev nD) : W11 m ρ c (Proc.devRef .tc main_v2) = W10 m ρ c (Proc.devRef .tc main_v2) :=
  (W11_arr m ρ c 2).trans (((dat0 (V10 m ρ) c).arrAt_in 2 rfl _).trans (A_eq0 (V10 m ρ) c 2))

theorem W11_v3 (c : Dev nD) : W11 m ρ c (Proc.devRef .tc main_v3) = W10 m ρ c (Proc.devRef .tc main_v3) :=
  W11_of_ne m ρ c main_v3 (by decide)

theorem W11_v4 (c : Dev nD) : W11 m ρ c (Proc.devRef .tc main_v4) = W10 m ρ c (Proc.devRef .tc main_v4) :=
  W11_of_ne m ρ c main_v4 (by decide)

/-! ## After the second region -/

theorem W12_spike (c : Dev nD) : W12 m ρ c (Proc.devRef .tc main_v5_0) = spikeRes (V10 m ρ) c :=
  (W12_of_ne m ρ c main_v5_0 (by decide)).trans (W11_spike m ρ c)

theorem W12_slab (c : Dev nD) : W12 m ρ c (Proc.devRef .tc main_v6) = slabRes (V11 m ρ) c :=
  (W12_arr m ρ c 6).trans (slabRes_array (V11 m ρ) c)

end Cert.KernelIdeal.Boundaries
end
-- ==== Proof.Entries.lean ====
/-
  A tile's entries are the arguments' entries.

  At a real neuron `j = 128·t + l < 8000`, entry (r, l) of a window's block at tile `t` is entry (r, j) of the
  padded array, which the padding left equal to entry (r, j) of the argument array: the padding is on the right of
  the neuron axis only.  The second region's scalar window holds the first region's maximum.
-/
import proofs.«164940_j17970143167413_1_alg».proof.Proof.Boundaries
import proofs.«164940_j17970143167413_1_alg».proof.Proof.Blocks
import Idealize.ShloMosaic.Lib.KernelVsHost
import Idealize.ShloMosaic.Lib.ValueIdx

set_option maxRecDepth 16384

noncomputable section
namespace Cert.KernelIdeal.Entries

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-- The five argument arrays as functions of (trial, neuron): target, log-mean, variance, cutoff, slab probability. -/
abbrev aT : Fin 4096 → Fin 8000 → EReal := fun r j => (m ((c : Thread nD τ).loc main_arg0) : S4096x8000.Idx → EReal) (ix2 r j)
abbrev aMU : Fin 4096 → Fin 8000 → EReal := fun r j => (m ((c : Thread nD τ).loc main_arg1) : S4096x8000.Idx → EReal) (ix2 r j)
abbrev aS2 : Fin 4096 → Fin 8000 → EReal := fun r j => (m ((c : Thread nD τ).loc main_arg2) : S4096x8000.Idx → EReal) (ix2 r j)
abbrev aLOC : Fin 4096 → Fin 8000 → EReal := fun r j => (m ((c : Thread nD τ).loc main_arg3) : S4096x8000.Idx → EReal) (ix2 r j)
abbrev aQ : Fin 4096 → Fin 8000 → EReal := fun r j => (m ((c : Thread nD τ).loc main_arg4) : S4096x8000.Idx → EReal) (ix2 r j)

/-- The padded array at a real neuron is the array there. -/
theorem padded (x : S4096x8000.Idx → EReal) (v : S_.Idx → EReal) (r : Fin 4096) (k : ℕ) (hk : k < 8000) (hk' : k < 8064) :
    pad S4096x8064 ![0, 0] ![0, 64] ![0, 0] x v pads_S4096x8000_S4096x8064_000_0640 h_S_ (ix2 r ⟨k, hk'⟩) = x (ix2 r ⟨k, hk⟩) :=
  pad_apply_of_inside _ _ _ _ _ _ _ _ (ix2 r ⟨k, hk⟩) (fun a => by
    match a with
    | ⟨0, _⟩ => show r.val = 0 + r.val * (0 + 1); omega
    | ⟨1, _⟩ => show k = 0 + k * (0 + 1); omega)

/-! ## First region -/

theorem e0_0 (t : Fin cfg0.N) (r : Fin 4096) (l : Fin 128) (hv : t.val * 128 + l.val < 8000) :
    (iblk0 (V10 m ρ) c 0 t : Vec Ideal S4096x128 .f32) (ix2 r l) = aT m c r ⟨t.val * 128 + l.val, hv⟩ := by
  rw [Blocks.blk0_0 (V10 m ρ) c t r l (by omega)]
  show W10 m ρ c (Proc.devRef .tc main_v0) _ = _
  rw [HostSide.W10_v0 m ρ c]
  have hk : (⟨128 * t.val + l.val, by omega⟩ : Fin 8064) = ⟨t.val * 128 + l.val, by omega⟩ := Fin.ext (by show 128 * t.val + l.val = t.val * 128 + l.val; omega)
  rw [hk]
  exact padded _ _ r _ hv (by omega)

theorem e0_1 (t : Fin cfg0.N) (r : Fin 4096) (l : Fin 128) (hv : t.val * 128 + l.val < 8000) :
    (iblk0 (V10 m ρ) c 1 t : Vec Ideal S4096x128 .f32) (ix2 r l) = aLOC m c r ⟨t.val * 128 + l.val, hv⟩ := by
  rw [Blocks.blk0_1 (V10 m ρ) c t r l (by omega)]
  show W10 m ρ c (Proc.devRef .tc main_v1) _ = _
  rw [HostSide.W10_v1 m ρ c]
  have hk : (⟨128 * t.val + l.val, by omega⟩ : Fin 8064) = ⟨t.val * 128 + l.val, by omega⟩ := Fin.ext (by show 128 * t.val + l.val = t.val * 128 + l.val; omega)
  rw [hk]
  exact padded _ _ r _ hv (by omega)

theorem e0_2 (t : Fin cfg0.N) (r : Fin 4096) (l : Fin 128) (hv : t.val * 128 + l.val < 8000) :
    (iblk0 (V10 m ρ) c 2 t : Vec Ideal S4096x128 .f32) (ix2 r l) = aQ m c r ⟨t.val * 128 + l.val, hv⟩ := by
  rw [Blocks.blk0_2 (V10 m ρ) c t r l (by omega)]
  show W10 m ρ c (Proc.devRef .tc main_v2) _ = _
  rw [HostSide.W10_v2 m ρ c]
  have hk : (⟨128 * t.val + l.val, by omega⟩ : Fin 8064) = ⟨t.val * 128 + l.val, by omega⟩ := Fin.ext (by show 128 * t.val + l.val = t.val * 128 + l.val; omega)
  rw [hk]
  exact padded _ _ r _ hv (by omega)

/-! ## Second region -/

theorem e1_0 (t : Fin cfg1.N) (r : Fin 4096) (l : Fin 128) (hv : t.val * 128 + l.val < 8000) :
    (iblk1 (V11 m ρ) c 0 t : Vec Ideal S4096x128 .f32) (ix2 r l) = aT m c r ⟨t.val * 128 + l.val, hv⟩ := by
  rw [Blocks.blk1_0 (V11 m ρ) c t r l (by omega)]
  show W11 m ρ c (Proc.devRef .tc main_v0) _ = _
  rw [Boundaries.W11_v0 m ρ c, HostSide.W10_v0 m ρ c]
  have hk : (⟨128 * t.val + l.val, by omega⟩ : Fin 8064) = ⟨t.val * 128 + l.val, by omega⟩ := Fin.ext (by show 128 * t.val + l.val = t.val * 128 + l.val; omega)
  rw [hk]
  exact padded _ _ r _ hv (by omega)

theorem e1_1 (t : Fin cfg1.N) (r : Fin 4096) (l : Fin 128) (hv : t.val * 128 + l.val < 8000) :
    (iblk1 (V11 m ρ) c 1 t : Vec Ideal S4096x128 .f32) (ix2 r l) = aLOC m c r ⟨t.val * 128 + l.val, hv⟩ := by
  rw [Blocks.blk1_1 (V11 m ρ) c t r l (by omega)]
  show W11 m ρ c (Proc.devRef .tc main_v1) _ = _
  rw [Boundaries.W11_v1 m ρ c, HostSide.W10_v1 m ρ c]
  have hk : (⟨128 * t.val + l.val, by omega⟩ : Fin 8064) = ⟨t.val * 128 + l.val, by omega⟩ := Fin.ext (by show 128 * t.val + l.val = t.val * 128 + l.val; omega)
  rw [hk]
  exact padded _ _ r _ hv (by omega)

theorem e1_2 (t : Fin cfg1.N) (r : Fin 4096) (l : Fin 128) (hv : t.val * 128 + l.val < 8000) :
    (iblk1 (V11 m ρ) c 2 t : Vec Ideal S4096x128 .f32) (ix2 r l) = aQ m c r ⟨t.val * 128 + l.val, hv⟩ := by
  rw [Blocks.blk1_2 (V11 m ρ) c t r l (by omega)]
  show W11 m ρ c (Proc.devRef .tc main_v2) _ = _
  rw [Boundaries.W11_v2 m ρ c, HostSide.W10_v2 m ρ c]
  have hk : (⟨128 * t.val + l.val, by omega⟩ : Fin 8064) = ⟨t.val * 128 + l.val, by omega⟩ := Fin.ext (by show 128 * t.val + l.val = t.val * 128 + l.val; omega)
  rw [hk]
  exact padded _ _ r _ hv (by omega)

theorem e1_3 (t : Fin cfg1.N) (r : Fin 4096) (l : Fin 128) (hv : t.val * 128 + l.val < 8000) :
    (iblk1 (V11 m ρ) c 3 t : Vec Ideal S4096x128 .f32) (ix2 r l) = aMU m c r ⟨t.val * 128 + l.val, hv⟩ := by
  rw [Blocks.blk1_3 (V11 m ρ) c t r l (by omega)]
  show W11 m ρ c (Proc.devRef .tc main_v3) _ = _
  rw [Boundaries.W11_v3 m ρ c, HostSide.W10_v3 m ρ c]
  have hk : (⟨128 * t.val + l.val, by omega⟩ : Fin 8064) = ⟨t.val * 128 + l.val, by omega⟩ := Fin.ext (by show 128 * t.val + l.val = t.val * 128 + l.val; omega)
  rw [hk]
  exact padded _ _ r _ hv (by omega)

theorem e1_4 (t : Fin cfg1.N) (r : Fin 4096) (l : Fin 128) (hv : t.val * 128 + l.val < 8000) :
    (iblk1 (V11 m ρ) c 4 t : Vec Ideal S4096x128 .f32) (ix2 r l) = aS2 m c r ⟨t.val * 128 + l.val, hv⟩ := by
  rw [Blocks.blk1_4 (V11 m ρ) c t r l (by omega)]
  show W11 m ρ c (Proc.devRef .tc main_v4) _ = _
  rw [Boundaries.W11_v4 m ρ c, HostSide.W10_v4 m ρ c]
  have hk : (⟨128 * t.val + l.val, by omega⟩ : Fin 8064) = ⟨t.val * 128 + l.val, by omega⟩ := Fin.ext (by show 128 * t.val + l.val = t.val * 128 + l.val; omega)
  rw [hk]
  exact padded _ _ r _ hv (by omega)

/-- The scalar window of the second region holds the first region's maximum after its last tile. -/
theorem e1_5 (t : Fin cfg1.N) :
    (iblk1 (V11 m ρ) c 5 t : Vec Ideal S1x1 .f32) (ix2 0 0) = (Arrays.maxRes (V10 m ρ) c : S1x1.Idx → EReal) (ix2 0 0) := by
  rw [Blocks.blk1_5 (V11 m ρ) c t]
  show W11 m ρ c (Proc.devRef .tc main_v5_1) _ = _
  rw [Boundaries.W11_max m ρ c]

end Cert.KernelIdeal.Entries
end
-- ==== Proof.RunEnd.lean ====
/-
  The idealized kernel's whole run, with its final memory named.

  @main is ten stretches of host operations (the five paddings), the two reduction regions, and a last stretch
  (two reshapes, the sum of the two partial losses, the negation).  Every weakly fair execution terminates, and
  in the final state every unscoped buffer holds what the fold of those thirteen segments leaves in it; any
  post-condition that follows from that fact therefore holds of the run.
-/
import proofs.«164940_j17970143167413_1_alg».proof.Proof.Gen.KernelIdeal.Frame

set_option maxRecDepth 16384

noncomputable section

namespace Cert.KernelIdeal.RunEnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Any property of the final state that follows from "each unscoped buffer holds the last segment boundary's
    contents" holds after every weakly fair execution of @main. -/
theorem run_end (Q : _ → Prop)
    (hQ : ∀ s, (∀ c : Dev nD, ∀ b ∈ Pipeline.ucRefs τ sig, s.mem (((c : Thread nD τ)).1, b) = W13 m ρ c b) → Q s) :
    θ_run defs (onTc (τ := τ) (main (F := F))) ⟨m, fun _ => 0, ρ⟩ (fun r => Q r.2) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => hQ s h)

end Cert.KernelIdeal.RunEnd

end
-- ==== Proof.KernelValue.lean ====
/-
  The idealized kernel's result is the loss.

  Tile by tile the three accumulators gather, at the real neurons, exactly the per-entry terms of the loss: a lane of
  a tile holds a neuron's whole column, so the column maximum taken inside the tile is the neuron's; the padding lanes
  contribute zero.  Regrouping tiles and lanes into neurons gives the two partial sums and, for the running maximum
  started from zero, the greatest response above its cutoff of the whole array (all such responses being ≥ 0).  The
  second region reads that maximum from the first and uses it, as the loss does, for the responses at or below their
  cutoff when it takes each neuron's least response.  The last host operations add the two sums and negate.
-/
import proofs.«164940_j17970143167413_1_alg».proof.Proof.Closed
import proofs.«164940_j17970143167413_1_alg».proof.Proof.Entries
import proofs.«164940_j17970143167413_1_alg».proof.Proof.RunEnd

set_option maxRecDepth 16384

noncomputable section
namespace Cert.KernelIdeal.Value

open Idealize.ShloMosaic Idealize.ShloMosaic.TcCoe Idealize.SL.Sem Idealize.ShloMosaic.ValueIdx
open Cert.KernelIdeal Cert.KernelIdeal.Gen Cert.KernelIdeal.Arrays Cert.KernelIdeal.Closed Cert.KernelIdeal.Entries
open Cert.KernelIdeal.TileIdeal Cert.Spec

variable (m : (ℓ : Loc nD τ sig) → Buf (Elt Ideal) ℓ) (ρ : Dev nD → PrngReg) (c : Dev nD)

theorem hN0 : cfg0.N = 63 := N_0
theorem hN1 : cfg1.N = 63 := N_1

/-! ## The per-neuron terms, as functions of the padded position -/

/-- Neuron `k`'s spike terms summed over trials (0 at a padding position). -/
def colSpike (k : ℕ) : EReal :=
  if h : k < 8000 then ∑ r : Fin 4096, spikeE (cmax (aT m c) ⟨k, h⟩) (aT m c r ⟨k, h⟩) (aLOC m c r ⟨k, h⟩) (aQ m c r ⟨k, h⟩) else 0

/-- The masked response of trial `r` at position `k` (0 at a padding position). -/
def posNz (r : Fin 4096) (k : ℕ) : EReal :=
  if h : k < 8000 then nzE (cmax (aT m c) ⟨k, h⟩) (aT m c r ⟨k, h⟩) (aLOC m c r ⟨k, h⟩) else 0

/-- Neuron `k`'s slab terms summed over trials (0 at a padding position). -/
def colSlab (k : ℕ) : EReal :=
  if h : k < 8000 then
    ∑ r : Fin 4096, slabE (cmax (aT m c) ⟨k, h⟩) (cmin (aT m c) (aLOC m c) ⟨k, h⟩) (aT m c r ⟨k, h⟩) (aLOC m c r ⟨k, h⟩)
      (aQ m c r ⟨k, h⟩) (aMU m c r ⟨k, h⟩) (aS2 m c r ⟨k, h⟩)
  else 0

theorem posNz_nonneg (r : Fin 4096) (k : ℕ) : 0 ≤ posNz m c r k := by
  unfold posNz
  split
  · exact Cert.Regroup.nzE_nonneg _ _ _ (Cert.Regroup.le_colMax (fun i => aT m c i _) r)
  · exact le_rfl

/-! ## First region -/

/-- A real neuron's column maximum, taken inside its tile. -/
theorem lane0 (t : Fin cfg0.N) (l : Fin 128) (hv : t.val * 128 + l.val < 8000) :
    laneMax (iblk0 (V10 m ρ) c 0 t) l = cmax (aT m c) ⟨t.val * 128 + l.val, hv⟩ := by
  unfold laneMax cmax
  exact congrArg colMax (funext fun r' => e0_0 m ρ c t r' l hv)

theorem tileSum_eq (s : ℕ) (hs : s < 63) : tileSum (V10 m ρ) c s = ∑ l : Fin 128, colSpike m c (s * 128 + l.val) := by
  have h : s < cfg0.N := by rw [hN0]; exact hs
  have hc : ((grid0.coords ⟨s, h⟩) 0).val = s := Blocks.coord0 ⟨s, h⟩
  rw [tileSum, dif_pos h, tileSpike_eq _ (hi0 ⟨s, h⟩)]
  refine Finset.sum_congr rfl fun l _ => ?_
  simp only [hc]
  by_cases hv : s * 128 + l.val < 8000
  · rw [colSpike, dif_pos hv]
    refine Finset.sum_congr rfl fun r _ => ?_
    rw [if_pos hv, lane0 m ρ c ⟨s, h⟩ l hv, e0_0 m ρ c ⟨s, h⟩ r l hv, e0_1 m ρ c ⟨s, h⟩ r l hv, e0_2 m ρ c ⟨s, h⟩ r l hv]
  · rw [colSpike, dif_neg hv]
    exact Finset.sum_eq_zero fun r _ => if_neg hv

/-- The spike array's entry is the loss's spike sum. -/
theorem spike_value : (spikeRes (V10 m ρ) c : S1x1.Idx → EReal) (ix2 0 0) = spikeSum (aT m c) (aLOC m c) (aQ m c) := by
  rw [spike_total]
  show (∑ s ∈ Finset.range 63, tileSum (V10 m ρ) c s : EReal) = spikeSum (aT m c) (aLOC m c) (aQ m c)
  rw [Finset.sum_range (fun s => tileSum (V10 m ρ) c s),
    Finset.sum_congr rfl (fun t _ => tileSum_eq m ρ c t.val t.isLt),
    Cert.Regroup.sum_tiles (colSpike m c) (fun k hk => by rw [colSpike, dif_neg (by omega)])]
  unfold spikeSum
  refine Finset.sum_congr rfl fun j _ => ?_
  rw [colSpike, dif_pos j.isLt]

theorem tileMax_eq (s : ℕ) (hs : s < 63) :
    tileMax (V10 m ρ) c s = Finset.univ.fold max ⊥ fun p : Fin 4096 × Fin 128 => posNz m c p.1 (s * 128 + p.2.val) := by
  have h : s < cfg0.N := by rw [hN0]; exact hs
  have hc : ((grid0.coords ⟨s, h⟩) 0).val = s := Blocks.coord0 ⟨s, h⟩
  rw [tileMax, dif_pos h]
  refine congrArg (fun f => Finset.univ.fold max ⊥ f) (funext fun p => ?_)
  simp only [hc]
  by_cases hv : s * 128 + p.2.val < 8000
  · rw [if_pos hv, posNz, dif_pos hv, lane0 m ρ c ⟨s, h⟩ p.2 hv, e0_0 m ρ c ⟨s, h⟩ p.1 p.2 hv, e0_1 m ρ c ⟨s, h⟩ p.1 p.2 hv]
  · rw [if_neg hv, posNz, dif_neg hv]

/-- The maximum array's entry is the loss's greatest response above its cutoff. -/
theorem max_value : (maxRes (V10 m ρ) c : S1x1.Idx → EReal) (ix2 0 0) = gmax (aT m c) (aLOC m c) := by
  rw [max_total]
  show ((Finset.range 63).fold max 0 (tileMax (V10 m ρ) c) : EReal) = gmax (aT m c) (aLOC m c)
  rw [Finset.fold_congr (g := fun t => Finset.univ.fold max ⊥ fun p : Fin 4096 × Fin 128 => posNz m c p.1 (t * 128 + p.2.val))
      (fun t ht => tileMax_eq m ρ c t (Finset.mem_range.mp ht)),
    Cert.Regroup.max_tiles (posNz m c) (posNz_nonneg m c) (fun r k hk => by rw [posNz, dif_neg (by omega)])]
  unfold gmax
  refine congrArg (fun f => Finset.univ.fold max ⊥ f) (funext fun p => ?_)
  rw [posNz, dif_pos p.2.isLt]

/-! ## Second region -/

theorem lane1 (t : Fin cfg1.N) (l : Fin 128) (hv : t.val * 128 + l.val < 8000) :
    laneMax (iblk1 (V11 m ρ) c 0 t) l = cmax (aT m c) ⟨t.val * 128 + l.val, hv⟩ := by
  unfold laneMax cmax
  exact congrArg colMax (funext fun r' => e1_0 m ρ c t r' l hv)

theorem tileSlab_eq (s : ℕ) (hs : s < 63) : tileSlab (V11 m ρ) c s = ∑ l : Fin 128, colSlab m c (s * 128 + l.val) := by
  have h : s < cfg1.N := by rw [hN1]; exact hs
  have hc : ((grid1.coords ⟨s, h⟩) 0).val = s := Blocks.coord1 ⟨s, h⟩
  rw [tileSlab, dif_pos h]
  refine Finset.sum_congr rfl fun l _ => ?_
  simp only [hc]
  by_cases hv : s * 128 + l.val < 8000
  · rw [colSlab, dif_pos hv]
    refine Finset.sum_congr rfl fun r _ => ?_
    rw [if_pos hv, lane1 m ρ c ⟨s, h⟩ l hv, e1_5 m ρ c ⟨s, h⟩, max_value m ρ c, e1_0 m ρ c ⟨s, h⟩ r l hv, e1_1 m ρ c ⟨s, h⟩ r l hv,
      e1_2 m ρ c ⟨s, h⟩ r l hv, e1_3 m ρ c ⟨s, h⟩ r l hv, e1_4 m ρ c ⟨s, h⟩ r l hv]
    have hmin : (colMin fun r' : Fin 4096 => repE (gmax (aT m c) (aLOC m c))
        (if s * 128 + l.val < 8000 then
          nzE (cmax (aT m c) ⟨s * 128 + l.val, hv⟩) ((iblk1 (V11 m ρ) c 0 ⟨s, h⟩ : Vec Ideal S4096x128 .f32) (ix2 r' l))
            ((iblk1 (V11 m ρ) c 1 ⟨s, h⟩ : Vec Ideal S4096x128 .f32) (ix2 r' l))
        else 0)) = cmin (aT m c) (aLOC m c) ⟨s * 128 + l.val, hv⟩ := by
      unfold cmin
      refine congrArg colMin (funext fun r' => ?_)
      rw [if_pos hv, e1_0 m ρ c ⟨s, h⟩ r' l hv, e1_1 m ρ c ⟨s, h⟩ r' l hv]
    rw [hmin]
  · rw [colSlab, dif_neg hv]
    exact Finset.sum_eq_zero fun r _ => if_neg hv

/-- The slab array's entry is the loss's slab sum. -/
theorem slab_value : (slabRes (V11 m ρ) c : S1x1.Idx → EReal) (ix2 0 0)
    = slabSum (aT m c) (aMU m c) (aS2 m c) (aLOC m c) (aQ m c) := by
  rw [slab_total]
  show (∑ s ∈ Finset.range 63, tileSlab (V11 m ρ) c s : EReal) = slabSum (aT m c) (aMU m c) (aS2 m c) (aLOC m c) (aQ m c)
  rw [Finset.sum_range (fun s => tileSlab (V11 m ρ) c s),
    Finset.sum_congr rfl (fun t _ => tileSlab_eq m ρ c t.val t.isLt),
    Cert.Regroup.sum_tiles (colSlab m c) (fun k hk => by rw [colSlab, dif_neg (by omega)])]
  unfold slabSum
  refine Finset.sum_congr rfl fun j _ => ?_
  rw [colSlab, dif_pos j.isLt]

/-! ## The result -/

/-- The result buffer's one entry, after the whole run, is the loss of the five argument arrays. -/
theorem result_value : (W13 m ρ c (Proc.devRef .tc main_v10) : S_.Idx → EReal) ix0
    = loss (aT m c) (aMU m c) (aS2 m c) (aLOC m c) (aQ m c) := by
  rw [HostSide.W13_result m ρ c]
  show -((shapeCast S_ (W12 m ρ c (Proc.devRef .tc main_v5_0)) shapeCasts_S1x1_S_ : S_.Idx → EReal) ix0
      + (shapeCast S_ (W12 m ρ c (Proc.devRef .tc main_v6)) shapeCasts_S1x1_S_ : S_.Idx → EReal) ix0) = _
  rw [shapeCast_apply _ _ ix0 (ix2 0 0) (by decide), shapeCast_apply _ _ ix0 (ix2 0 0) (by decide),
    Boundaries.W12_spike m ρ c, Boundaries.W12_slab m ρ c, spike_value m ρ c, slab_value m ρ c]
  rfl

end Cert.KernelIdeal.Value
end
-- ==== Proof.RefSide.lean ====
/-
  The reference's run, with its result named as the last stage of the program read one operation at a time.
-/
import proofs.«164940_j17970143167413_1_alg».proof.Proof.RefRunP
import proofs.«164940_j17970143167413_1_alg».proof.Proof.RefReadP

set_option maxRecDepth 16384

noncomputable section
namespace Cert.ReferenceIdeal.RefSide

open Idealize.ShloMosaic Idealize.ShloMosaic.TcCoe Idealize.SL.Sem
open Cert.ReferenceIdeal Cert.ReferenceIdeal.Gen

variable {F : FTy → Type} [FloatOps F]

/-- The composed term the run ends at is the last stage applied to the five argument arrays. -/
theorem res_is_stage (m : (ℓ : Loc nD τ sig) → Buf (Elt F) ℓ) (c : Dev nD) :
    Cert.ReferenceIdeal.ValueP.res_main_v50 m c
      = Cert.ReferenceIdeal.ReadP.val_main_v50 (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  unfold Cert.ReferenceIdeal.ValueP.res_main_v50; rfl

end Cert.ReferenceIdeal.RefSide
end
-- ==== Proof.RefSpec.lean ====
/-
  The reference program's result is the loss.

  Read one operation at a time, the reference clamps the cutoff by adding to it the difference between its clamped
  value and itself; for a finite cutoff that sum is the clamped value, which is where the finiteness of the inputs
  is used.  Everything else is the loss's definition, the two column reductions and the global maximum read as
  folds over their index sets.
-/
import proofs.«164940_j17970143167413_1_alg».proof.Proof.RefReadP
import proofs.«164940_j17970143167413_1_alg».proof.Proof.Spec
import Idealize.ShloMosaic.PureOps.Ideal.Laws
import Idealize.ShloMosaic.Lib.ValueIdx
import Idealize.ShloMosaic.Lib.IdealHost

set_option maxRecDepth 16384

noncomputable section
namespace Cert.ReferenceIdeal.RefSpec

open Idealize.ShloMosaic Idealize.ShloMosaic.ValueIdx
open Cert.ReferenceIdeal Cert.ReferenceIdeal.Gen

/-- An array of the program as a function of (trial, neuron). -/
abbrev grid2 (x : (⟨S4096x8000, .f32⟩ : BufTy).Contents (Elt Ideal)) : Fin 4096 → Fin 8000 → EReal := fun r j => x (ix2 r j)

/-! ## Extended reals -/

/-- Adding to a real number the difference between an extended real and it gives that extended real. -/
theorem coe_add_sub_cancel (a : ℝ) (c : EReal) : (a : EReal) + (c - a) = c := by
  induction c using EReal.rec with
  | bot => simp
  | top => simp
  | coe c => rw [← EReal.coe_sub, ← EReal.coe_add]; congr 1; ring

theorem colMax_eq_sup {n : Nat} (t : Fin n → EReal) : Spec.colMax t = Finset.univ.sup t := rfl
theorem colMin_eq_inf {n : Nat} (t : Fin n → EReal) : Spec.colMin t = Finset.univ.inf t := rfl

/-- The greatest of 4096 real numbers is a real number. -/
theorem colMax_real (t : Fin 4096 → EReal) (h : ∀ i, ∃ a : ℝ, t i = a) : ∃ a : ℝ, Spec.colMax t = a := by
  obtain ⟨i, _, hi⟩ := Finset.exists_mem_eq_sup Finset.univ Finset.univ_nonempty t
  obtain ⟨a, ha⟩ := h i
  exact ⟨a, by rw [colMax_eq_sup, hi, ha]⟩

/-- A real number clamped between 0 and a real number is a real number. -/
theorem clip_real {hi x : EReal} (hhi : ∃ b : ℝ, hi = b) (hx : ∃ a : ℝ, x = a) : ∃ c : ℝ, Spec.clip hi x = c := by
  obtain ⟨b, rfl⟩ := hhi
  obtain ⟨a, rfl⟩ := hx
  unfold Spec.clip
  rcases min_choice (b : EReal) (max 0 (a : EReal)) with h | h
  · exact ⟨b, h⟩
  · rcases max_choice (0 : EReal) (a : EReal) with h' | h'
    · exact ⟨0, by rw [h, h']; rfl⟩
    · exact ⟨a, by rw [h, h']⟩

theorem ofBits_neg_inf : Ideal.ofBits .f32 0xFF800000#32 = ⊥ := by simp [Ideal.ofBits, Ideal.ieee]
theorem ofBits_pos_inf : Ideal.ofBits .f32 0x7F800000#32 = ⊤ := by simp [Ideal.ofBits, Ideal.ieee]

/-! ## The three reductions -/

theorem red0 : S4096x8000.Reduces [0] S8000 := by decide

theorem lift_red0 (j : Fin 8000) (k : Fin 4096) : red0.lift (ix1 j) k = ix2 k j := by
  funext a; refine Fin.ext ?_; match a with | ⟨0, _⟩ => rfl | ⟨1, _⟩ => rfl

/-- The column maximum of the first reduction. -/
theorem v0_apply (x0 : (⟨S4096x8000, .f32⟩ : BufTy).Contents (Elt Ideal)) (j : Fin 8000) :
    ReadP.val_main_v0 (F := Ideal) x0 (ix1 j) = Spec.colMax (fun i : Fin 4096 => x0 (ix2 i j)) := by
  unfold ReadP.val_main_v0
  rw [Host.reduce_eq_fold_single _ _ _ _ red0]
  have hf : (x0 ∘ red0.lift (ix1 j)) = fun i : Fin 4096 => x0 (ix2 i j) := funext fun k => congrArg x0 (lift_red0 j k)
  rw [hf]
  show Finset.univ.fold max (Ideal.ofBits .f32 0xFF800000#32) _ = _
  rw [ofBits_neg_inf]
  rfl

theorem hostMaxCol (y : (⟨S4096x8000, .f32⟩ : BufTy).Contents (Elt Ideal)) (j : Fin 8000) :
    (Host.reduce (FloatOps.maximumf (F := Ideal) (φ := .f32)) y (ReadP.val_main_cst (F := Ideal)) reducesTo_S4096x8000_S8000_d0 h_S_ : S8000.Idx → EReal) (ix1 j)
      = Spec.colMax (fun i : Fin 4096 => y (ix2 i j)) := by
  rw [Host.reduce_eq_fold_single _ _ _ _ red0]
  have hf : (y ∘ red0.lift (ix1 j)) = fun i : Fin 4096 => y (ix2 i j) := funext fun k => congrArg y (lift_red0 j k)
  rw [hf]
  show Finset.univ.fold max (Ideal.ofBits .f32 0xFF800000#32) _ = _
  rw [ofBits_neg_inf]
  rfl

theorem hostMinCol (y : (⟨S4096x8000, .f32⟩ : BufTy).Contents (Elt Ideal)) (j : Fin 8000) :
    (Host.reduce (FloatOps.minimumf (F := Ideal) (φ := .f32)) y (ReadP.val_main_cst_6 (F := Ideal)) reducesTo_S4096x8000_S8000_d0 h_S_ : S8000.Idx → EReal) (ix1 j)
      = Spec.colMin (fun i : Fin 4096 => y (ix2 i j)) := by
  rw [Host.reduce_eq_fold_single _ _ _ _ red0]
  have hf : (y ∘ red0.lift (ix1 j)) = fun i : Fin 4096 => y (ix2 i j) := funext fun k => congrArg y (lift_red0 j k)
  rw [hf]
  show Finset.univ.fold min (Ideal.ofBits .f32 0x7F800000#32) _ = _
  rw [ofBits_pos_inf]
  rfl

theorem hostMaxAll (y : (⟨S4096x8000, .f32⟩ : BufTy).Contents (Elt Ideal)) (i : S_.Idx) :
    (Host.reduce (FloatOps.maximumf (F := Ideal) (φ := .f32)) y (ReadP.val_main_cst_5 (F := Ideal)) reducesTo_S4096x8000_S_d0_1 h_S_ : S_.Idx → EReal) i
      = Finset.univ.fold max ⊥ (fun p : Fin 4096 × Fin 8000 => y (ix2 p.1 p.2)) := by
  rw [Host.reduce_eq_fold]
  rw [Finset.filter_true_of_mem (fun k _ => funext fun b => b.elim0)]
  show Finset.univ.fold max (Ideal.ofBits .f32 0xFF800000#32) y = _
  rw [ofBits_neg_inf]
  have hu : (Finset.univ : Finset S4096x8000.Idx)
      = (Finset.univ : Finset (Fin 4096 × Fin 8000)).map (idxEquiv2 (n0 := 4096) (n1 := 8000)).symm.toEmbedding :=
    (Finset.map_univ_equiv _).symm
  rw [hu, Finset.fold_map]
  rfl

/-- A rank-1 index set is its coordinate range, so a sum over it is the sum over the coordinate. -/
def idxEquiv1 {n : Nat} : (⟨1, ![n]⟩ : Shape).Idx ≃ Fin n where
  toFun i := i 0
  invFun a := ix1 a
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The masks -/

/-- A one-bit word converted to a float is 1 or 0. -/
theorem uitofp_bit (b : BitVec 1) : FloatOps.uitofp (F := Ideal) .f32 b = Spec.ind b := by
  show ((b.toNat : ℝ) : EReal) = if b = 1#1 then 1 else 0
  rcases BitVec.eq_zero_or_eq_one b with h | h
  · subst h; rw [if_neg (by decide)]; simp
  · subst h; rw [if_pos rfl]; simp

/-! ## The entries -/

section Entries
variable (x0 x1 x2 x3 x4 : (⟨S4096x8000, .f32⟩ : BufTy).Contents (Elt Ideal))
variable (hT : ∀ i, ∃ a : ℝ, x0 i = (a : EReal)) (hL : ∀ i, ∃ a : ℝ, x3 i = (a : EReal))
include hL

/-- The cutoff clamped the first time. -/
theorem v3_apply (r : Fin 4096) (j : Fin 8000) :
    ReadP.val_main_v3 (F := Ideal) x0 x3 (ix2 r j) = Spec.clip (Spec.cmax (grid2 x0) j) (x3 (ix2 r j)) := by
  obtain ⟨a, ha⟩ := hL (ix2 r j)
  rw [ReadP.val_main_v3_apply, ReadP.val_main_v2_apply, ReadP.val_main_v1_apply, ReadP.val_main_call0_v4_apply,
    ReadP.val_main_call0_v3_apply, ReadP.val_main_call0_v2_apply, ReadP.val_main_call0_v1_apply,
    ReadP.val_main_call0_v0_apply, ReadP.val_main_cst_0_apply]
  have hidx : ReadP.idx_main_call0_v3 (ReadP.idx_main_call0_v4 (ix2 r j)) = ix1 j :=
    funext fun a => Fin.ext (by match a with | ⟨0, _⟩ => rfl)
  rw [hidx, v0_apply]
  simp only [Ideal.addf_def, Ideal.subf_def, Ideal.minimumf_def, Ideal.maximumf_def, Ideal.ofBits_def, Ideal.ofBits_zero_f32]
  rw [ha]
  exact coe_add_sub_cancel a _

/-- The spike term of one entry. -/
theorem v12_apply (r : Fin 4096) (j : Fin 8000) :
    ReadP.val_main_v12 (F := Ideal) x0 x3 x4 (ix2 r j)
      = Spec.spikeE (Spec.cmax (grid2 x0) j) (x0 (ix2 r j)) (x3 (ix2 r j)) (x4 (ix2 r j)) := by
  rw [ReadP.val_main_v12_apply, ReadP.val_main_v10_apply, ReadP.val_main_v11_apply, ReadP.val_main_v8_apply,
    ReadP.val_main_v9_apply, ReadP.val_main_v7_apply, ReadP.val_main_v6_apply, ReadP.val_main_cst_1_apply,
    ReadP.val_main_v4_apply, v3_apply x0 x3 hL]
  simp only [Ideal.mulf_def, Ideal.subf_def, Ideal.hostUnary_log_def, Ideal.ofBits_def, Ideal.cmpf_def, uitofp_bit]
  rfl

/-- The response where it exceeds the clamped cutoff, else 0. -/
theorem v16_apply (r : Fin 4096) (j : Fin 8000) :
    ReadP.val_main_v16 (F := Ideal) x0 x3 (ix2 r j)
      = Spec.nzE (Spec.cmax (grid2 x0) j) (x0 (ix2 r j)) (x3 (ix2 r j)) := by
  rw [ReadP.val_main_v16_apply, ReadP.val_main_v15_apply, ReadP.val_main_v5_apply, v3_apply x0 x3 hL]
  simp only [Ideal.mulf_def, Ideal.cmpf_def, uitofp_bit]
  rfl

/-- The greatest such response of the whole array. -/
theorem v19_apply (i : S_.Idx) :
    ReadP.val_main_v19 (F := Ideal) x0 x3 i = Spec.gmax (grid2 x0) (grid2 x3) := by
  unfold ReadP.val_main_v19
  rw [hostMaxAll]
  unfold Spec.gmax
  exact congrArg (fun f => Finset.univ.fold max ⊥ f) (funext fun p => v16_apply x0 x3 hL p.1 p.2)

/-- A zero response replaced by that greatest one. -/
theorem v20_apply (r : Fin 4096) (j : Fin 8000) :
    ReadP.val_main_v20 (F := Ideal) x0 x3 (ix2 r j)
      = Spec.repE (Spec.gmax (grid2 x0) (grid2 x3)) (Spec.nzE (Spec.cmax (grid2 x0) j) (x0 (ix2 r j)) (x3 (ix2 r j))) := by
  rw [ReadP.val_main_v20_apply, ReadP.val_main_v18_apply, ReadP.val_main_call1_v0_apply, ReadP.val_main_v17_apply,
    ReadP.val_main_cst_4_apply, v19_apply x0 x3 hL, v16_apply x0 x3 hL]
  simp only [Ideal.cmpf_def, Ideal.ofBits_def, Ideal.ofBits_zero_f32]
  rfl

/-- The least replaced response of a column. -/
theorem v21_apply (j : Fin 8000) :
    ReadP.val_main_v21 (F := Ideal) x0 x3 (ix1 j) = Spec.cmin (grid2 x0) (grid2 x3) j := by
  unfold ReadP.val_main_v21
  rw [hostMinCol]
  unfold Spec.cmin
  exact congrArg Spec.colMin (funext fun i => v20_apply x0 x3 hL i j)

end Entries

section Entries2
variable (x0 x1 x2 x3 x4 : (⟨S4096x8000, .f32⟩ : BufTy).Contents (Elt Ideal))
variable (hT : ∀ i, ∃ a : ℝ, x0 i = (a : EReal)) (hL : ∀ i, ∃ a : ℝ, x3 i = (a : EReal))
include hT hL

/-- The upper bound of the second clamp. -/
theorem v23_apply (j : Fin 8000) :
    ReadP.val_main_v23 (F := Ideal) x0 x3 (ix1 j) = Spec.cmin (grid2 x0) (grid2 x3) j * Spec.c999 := by
  rw [ReadP.val_main_v23_apply, ReadP.val_main_v22_apply, ReadP.val_main_cst_7_apply, v21_apply x0 x3 hL]
  rfl

/-- The cutoff clamped the second time. -/
theorem v26_apply (r : Fin 4096) (j : Fin 8000) :
    ReadP.val_main_v26 (F := Ideal) x0 x3 (ix2 r j)
      = Spec.clip (Spec.cmin (grid2 x0) (grid2 x3) j * Spec.c999) (Spec.clip (Spec.cmax (grid2 x0) j) (x3 (ix2 r j))) := by
  obtain ⟨a, ha⟩ : ∃ a : ℝ, Spec.clip (Spec.cmax (grid2 x0) j) (x3 (ix2 r j)) = a :=
    clip_real (colMax_real _ fun i => hT (ix2 i j)) (hL (ix2 r j))
  rw [ReadP.val_main_v26_apply, ReadP.val_main_v25_apply, ReadP.val_main_v24_apply, ReadP.val_main_call2_v4_apply,
    ReadP.val_main_call2_v3_apply, ReadP.val_main_call2_v2_apply, ReadP.val_main_call2_v1_apply,
    ReadP.val_main_call2_v0_apply, ReadP.val_main_cst_8_apply]
  have hidx : ReadP.idx_main_call2_v3 (ReadP.idx_main_call2_v4 (ix2 r j)) = ix1 j :=
    funext fun a => Fin.ext (by match a with | ⟨0, _⟩ => rfl)
  rw [hidx, v23_apply x0 x3 hT hL, v3_apply x0 x3 hL]
  simp only [Ideal.addf_def, Ideal.subf_def, Ideal.minimumf_def, Ideal.maximumf_def, Ideal.ofBits_def, Ideal.ofBits_zero_f32]
  rw [ha]
  exact coe_add_sub_cancel a _

/-- The slab term of one entry. -/
theorem v46_apply (r : Fin 4096) (j : Fin 8000) :
    ReadP.val_main_v46 (F := Ideal) x0 x1 x2 x3 x4 (ix2 r j)
      = Spec.slabE (Spec.cmax (grid2 x0) j) (Spec.cmin (grid2 x0) (grid2 x3) j) (x0 (ix2 r j)) (x3 (ix2 r j))
          (x4 (ix2 r j)) (x1 (ix2 r j)) (x2 (ix2 r j)) := by
  rw [ReadP.val_main_v46_apply, ReadP.val_main_v45_apply, ReadP.val_main_v44_apply, ReadP.val_main_v43_apply,
    ReadP.val_main_v42_apply, ReadP.val_main_v41_apply, ReadP.val_main_v40_apply, ReadP.val_main_cst_12_apply,
    ReadP.val_main_v39_apply, ReadP.val_main_v38_apply, ReadP.val_main_v37_apply, ReadP.val_main_v36_apply,
    ReadP.val_main_v35_apply, ReadP.val_main_cst_11_apply, ReadP.val_main_v34_apply, ReadP.val_main_v33_apply,
    ReadP.val_main_cst_10_apply, ReadP.val_main_v32_apply, ReadP.val_main_v31_apply, ReadP.val_main_v30_apply,
    ReadP.val_main_v29_apply, ReadP.val_main_v28_apply, ReadP.val_main_call3_v1_apply, ReadP.val_main_call3_v0_apply,
    ReadP.val_main_cst_9_apply, ReadP.val_main_v27_apply, ReadP.val_main_v5_apply, v26_apply x0 x3 hT hL,
    v3_apply x0 x3 hL]
  simp only [Ideal.mulf_def, Ideal.addf_def, Ideal.subf_def, Ideal.hostUnary_log_def, Ideal.ofBits_def, Ideal.cmpf_def,
    Ideal.hostDivf_def, Ideal.hostNegf_def, Ideal.negf_def, uitofp_bit]
  rfl

end Entries2

/-! ## The two double sums and the result -/

theorem idx_v13 (j : Fin 8000) (k : Fin 4096) : ReadP.idx_main_v13 (ix1 j) k = ix2 k j :=
  funext fun a => Fin.ext (by match a with | ⟨0, _⟩ => rfl | ⟨1, _⟩ => rfl)
theorem idx_v47 (j : Fin 8000) (k : Fin 4096) : ReadP.idx_main_v47 (ix1 j) k = ix2 k j :=
  funext fun a => Fin.ext (by match a with | ⟨0, _⟩ => rfl | ⟨1, _⟩ => rfl)

section Whole
variable (x0 x1 x2 x3 x4 : (⟨S4096x8000, .f32⟩ : BufTy).Contents (Elt Ideal))
variable (hT : ∀ i, ∃ a : ℝ, x0 i = (a : EReal)) (hL : ∀ i, ∃ a : ℝ, x3 i = (a : EReal))

include hL in
/-- The spike terms summed over trials, then over neurons. -/
theorem v14_apply (i : S_.Idx) :
    ReadP.val_main_v14 (F := Ideal) x0 x3 x4 i = Spec.spikeSum (grid2 x0) (grid2 x3) (grid2 x4) := by
  rw [ReadP.val_main_v14_apply, ReadP.val_main_cst_3_apply, sum_idx1]
  simp only [Ideal.ofBits_def, Ideal.ofBits_zero_f32, zero_add]
  unfold Spec.spikeSum
  refine Finset.sum_congr rfl fun j _ => ?_
  rw [ReadP.val_main_v13_apply, ReadP.val_main_cst_2_apply]
  simp only [Ideal.ofBits_def, Ideal.ofBits_zero_f32, zero_add]
  refine Finset.sum_congr rfl fun k _ => ?_
  rw [idx_v13 j k, v12_apply x0 x3 x4 hL]

include hT hL in
/-- The slab terms summed over trials, then over neurons. -/
theorem v48_apply (i : S_.Idx) :
    ReadP.val_main_v48 (F := Ideal) x0 x1 x2 x3 x4 i
      = Spec.slabSum (grid2 x0) (grid2 x1) (grid2 x2) (grid2 x3) (grid2 x4) := by
  rw [ReadP.val_main_v48_apply, ReadP.val_main_cst_14_apply, sum_idx1]
  simp only [Ideal.ofBits_def, Ideal.ofBits_zero_f32, zero_add]
  unfold Spec.slabSum
  refine Finset.sum_congr rfl fun j _ => ?_
  rw [ReadP.val_main_v47_apply, ReadP.val_main_cst_13_apply]
  simp only [Ideal.ofBits_def, Ideal.ofBits_zero_f32, zero_add]
  refine Finset.sum_congr rfl fun k _ => ?_
  rw [idx_v47 j k, v46_apply x0 x1 x2 x3 x4 hT hL]

end Whole

/-- The reference's result, at its one index, is the loss of the five arrays (target, log-mean, variance, cutoff, slab
    probability, in the program's argument order), when every target and every cutoff is a real number. -/
theorem ref_is_loss (x0 x1 x2 x3 x4 : (⟨S4096x8000, .f32⟩ : BufTy).Contents (Elt Ideal))
    (hT : ∀ i, ∃ a : ℝ, x0 i = (a : EReal)) (hL : ∀ i, ∃ a : ℝ, x3 i = (a : EReal)) :
    Cert.ReferenceIdeal.ReadP.val_main_v50 (F := Ideal) x0 x1 x2 x3 x4 ix0
      = Cert.Spec.loss (grid2 x0) (grid2 x1) (grid2 x2) (grid2 x3) (grid2 x4) := by
  rw [ReadP.val_main_v50_apply, ReadP.val_main_v49_apply, v14_apply x0 x3 x4 hL, v48_apply x0 x1 x2 x3 x4 hT hL]
  simp only [Ideal.hostNegf_def, Ideal.negf_def, Ideal.addf_def]
  rfl

end Cert.ReferenceIdeal.RefSpec
end
-- ==== Proof.Finite.lean ====
/-
  The precondition, read: every target and every cutoff is a real number.

  The stated precondition is the conjunction, over the five arrays, of "every entry's absolute value is below +∞".
  An extended real whose absolute value `max x (-x)` is below the top element is neither infinity, hence a real.
-/
import proofs.«164940_j17970143167413_1_alg».proof.Defs
import Idealize.ShloMosaic.Lib.ReduceAll
import Idealize.ShloMosaic.Lib.ValueIdx
import Idealize.ShloMosaic.PureOps.Ideal.Laws

set_option maxRecDepth 16384

noncomputable section
namespace Cert.Finite

open Idealize.ShloMosaic

theorem and1 : ∀ (a b : BitVec 1), IntOp.andi a b = 1#1 ↔ a = 1#1 ∧ b = 1#1 := by decide
theorem ofBool_eq_one (b : Bool) : BitVec.ofBool b = 1#1 ↔ b = true := by cases b <;> decide

instance : Subsingleton Cert.Pre_finite_inputs.S_.Idx := ⟨fun a b => funext fun d => d.elim0⟩

/-- The word of +∞ is the top element. -/
theorem top_word : Ideal.ofBits .f32 0x7F800000#32 = ⊤ := by simp [Ideal.ofBits, Ideal.ieee]

/-- An extended real with absolute value below the top element is a real number. -/
theorem real_of_abs_lt_top (x : EReal) (h : Ideal.cmp .olt (max x (-x)) ⊤ = 1#1) : ∃ a : ℝ, x = (a : EReal) := by
  unfold Ideal.cmp at h
  rw [ofBool_eq_one, decide_eq_true_eq] at h
  induction x using EReal.rec with
  | bot => simp at h
  | coe a => exact ⟨a, rfl⟩
  | top => simp at h

theorem real_of_bit (x : FVec Ideal Cert.Pre_finite_inputs.S4096x8000 .f32) (hb) (i : Cert.Pre_finite_inputs.S4096x8000.Idx)
    (h : cmpf .olt (Host.absf x) (broadcastInDim Cert.Pre_finite_inputs.S4096x8000 ![] hb
      (constant (F := Ideal) Cert.Pre_finite_inputs.S_ .f32 0x7F800000#32)) i = 1#1) : ∃ a : ℝ, x i = (a : EReal) := by
  refine real_of_abs_lt_top (x i) ?_
  rw [← top_word]
  exact h

/-- Under the precondition the target (first array) and the cutoff (fourth array) hold real numbers. -/
theorem real_of_pre [Cert.Pre_finite_inputs.Facts] (x0 x1 x2 x3 x4 : FVec Ideal Cert.Pre_finite_inputs.S4096x8000 .f32)
    (h : Cert.Pre_finite_inputs.fn (F := Ideal) x0 x1 x2 x3 x4 = fun _ => 1#1) :
    (∀ i, ∃ a : ℝ, x0 i = (a : EReal)) ∧ (∀ i, ∃ a : ℝ, x3 i = (a : EReal)) := by
  have e := congrFun h ValueIdx.ix0
  unfold Cert.Pre_finite_inputs.fn Cert.Pre_finite_inputs.fn_part1 at e
  simp only [andi] at e
  simp only [and1] at e
  obtain ⟨⟨⟨⟨h0, -⟩, -⟩, h3⟩, -⟩ := e
  exact ⟨fun i => real_of_bit x0 _ i (Host.reduce_andi_all _ _ _ _ _ h0 i),
    fun i => real_of_bit x3 _ i (Host.reduce_andi_all _ _ _ _ _ h3 i)⟩

end Cert.Finite
end
-- ==== Proof.lean ====
/-
  The certificate: a zero-inflated log-normal loss computed by two tiled reduction kernels equals its reference.

  Both idealized programs end, from memories agreeing on the five arrays, with the same extended real: minus the
  sum of the spike and slab terms of every (trial, neuron) entry.  The kernel pads the neuron axis from 8000 to
  8064, reduces tile by tile over 63 tiles of 128 neurons with the padding masked out, carries a sum and a maximum
  through the first region and a sum through the second, and adds and negates on the host; the reference computes
  the same terms on the whole arrays.  Three facts join them: sums of extended reals may be regrouped freely; every
  response above its clamped cutoff is nonnegative, so a running maximum started at zero is the true maximum; and
  the reference's clamp `x + (clamp x - x)` is `clamp x` because, under the precondition, `x` is a real number.
  The word-level kernel's frame and the idealized kernel's are generated; the ideal pass rewrote nothing, so the
  idealization claim is trivial.
-/
import proofs.«164940_j17970143167413_1_alg».proof.Defs
import proofs.«164940_j17970143167413_1_alg».proof.Proof.Gen.Kernel
import proofs.«164940_j17970143167413_1_alg».proof.Proof.Gen.Kernel.Skeleton
import proofs.«164940_j17970143167413_1_alg».proof.Proof.Gen.Kernel.Launch
import proofs.«164940_j17970143167413_1_alg».proof.Proof.Gen.Kernel.Points
import proofs.«164940_j17970143167413_1_alg».proof.Proof.Gen.Kernel.Frame
import proofs.«164940_j17970143167413_1_alg».proof.Proof.Gen.KernelIdeal
import proofs.«164940_j17970143167413_1_alg».proof.Proof.Gen.KernelIdeal.Skeleton
import proofs.«164940_j17970143167413_1_alg».proof.Proof.Gen.KernelIdeal.Launch
import proofs.«164940_j17970143167413_1_alg».proof.Proof.Gen.KernelIdeal.Points
import proofs.«164940_j17970143167413_1_alg».proof.Proof.Gen.KernelIdeal.Frame
import proofs.«164940_j17970143167413_1_alg».proof.Proof.Gen.ReferenceIdeal
import proofs.«164940_j17970143167413_1_alg».proof.Proof.Gen.Pre_finite_inputs
import proofs.«164940_j17970143167413_1_alg».proof.Proof.KernelValue
import proofs.«164940_j17970143167413_1_alg».proof.Proof.RefSide
import proofs.«164940_j17970143167413_1_alg».proof.Proof.RefSpec
import proofs.«164940_j17970143167413_1_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

section Claims
variable [hKernel : Cert.Kernel.Facts] [hKernelIdeal : Cert.KernelIdeal.Facts] [hReferenceIdeal : Cert.ReferenceIdeal.Facts]
  [hPre_finite_inputs : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end at the loss of the (agreeing) argument arrays. -/
theorem algebraic : Cert.algebraic_KernelIdeal_ReferenceIdeal := by
  intro m ρ m' ρ' hpre hagree
  refine ⟨fun c => Cert.KernelIdeal.Gen.W13 m ρ c (Proc.devRef .tc Cert.KernelIdeal.main_v10), ?_, ?_⟩
  · exact Cert.KernelIdeal.RunEnd.run_end m ρ
      (fun s => ∀ c : Dev Cert.KernelIdeal.nD,
        s.mem ((c.tc : Thread Cert.KernelIdeal.nD Cert.KernelIdeal.τ).loc Cert.KernelIdeal.main_v10) = Cert.KernelIdeal.Gen.W13 m ρ c (Proc.devRef .tc Cert.KernelIdeal.main_v10)
        ∧ s.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ s.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ s.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ s.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ s.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      (fun s h c =>
        ⟨h c _ (Cert.KernelIdeal.Gen.mem_uc Cert.KernelIdeal.main_v10 (by decide)),
         (h c _ (Cert.KernelIdeal.Gen.mem_uc Cert.KernelIdeal.main_arg0 (by decide))).trans (Cert.KernelIdeal.Gen.W13_main_arg0 m ρ c),
         (h c _ (Cert.KernelIdeal.Gen.mem_uc Cert.KernelIdeal.main_arg1 (by decide))).trans (Cert.KernelIdeal.Gen.W13_main_arg1 m ρ c),
         (h c _ (Cert.KernelIdeal.Gen.mem_uc Cert.KernelIdeal.main_arg2 (by decide))).trans (Cert.KernelIdeal.Gen.W13_main_arg2 m ρ c),
         (h c _ (Cert.KernelIdeal.Gen.mem_uc Cert.KernelIdeal.main_arg3 (by decide))).trans (Cert.KernelIdeal.Gen.W13_main_arg3 m ρ c),
         (h c _ (Cert.KernelIdeal.Gen.mem_uc Cert.KernelIdeal.main_arg4 (by decide))).trans (Cert.KernelIdeal.Gen.W13_main_arg4 m ρ c)⟩)
  · refine (θ_run Cert.ReferenceIdeal.defs _ _).mono (fun r h c => ⟨(h c).1.trans ?_, (h c).2⟩)
      (Cert.ReferenceIdeal.ValueP.run (F := Ideal) m' ρ')
    obtain ⟨hT, hL⟩ := Cert.Finite.real_of_pre _ _ _ _ _ (hpre c)
    rw [Cert.ReferenceIdeal.RefSide.res_is_stage m' c, (hagree c).1, (hagree c).2.1, (hagree c).2.2.1, (hagree c).2.2.2.1, (hagree c).2.2.2.2]
    funext i
    rw [eq_ix0 i, Cert.ReferenceIdeal.RefSpec.ref_is_loss _ _ _ _ _ hT hL]
    exact (Cert.KernelIdeal.Value.result_value m ρ c).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
